-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S256x128 : Shape := ⟨2, ![256, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S256x128 .f32) (main_arg10 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S256x128 .f32) (main_arg6 : FVec F S128 .f32) (main_arg7 : FVec F S256x128 .f32) (main_arg8 : FVec F S128 .f32) (main_arg9 : FVec F S256x128 .f32) (main_arg10 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x128 .f32) (main_arg1 : FVec F S131072x128 .f32) (main_arg2 : FVec F S131072x128 .f32) (main_arg3 : FVec F S256x128 .f32) (main_arg4 : FVec F S128 .f32) (main_arg5 : FVec F S256x128 .f32) (main_arg6 : FVec F S128 .f32) (main_arg7 : FVec F S256x128 .f32) (main_arg8 : FVec F S128 .f32) (main_arg9 : FVec F S256x128 .f32) (main_arg10 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_v13 main_v16
-- ==== Kernel.lean ====
abbrev S131072x128 : Shape := ⟨2, ![131072, 128]⟩
abbrev S256x128 : Shape := ⟨2, ![256, 128]⟩
abbrev S128 : Shape := ⟨1, ![128]⟩
abbrev S256x512 : Shape := ⟨2, ![256, 512]⟩
abbrev S512 : Shape := ⟨1, ![512]⟩
abbrev S1x512 : Shape := ⟨2, ![1, 512]⟩
abbrev S4096x128 : Shape := ⟨2, ![4096, 128]⟩
abbrev S4096x256 : Shape := ⟨2, ![4096, 256]⟩
abbrev S4096x512 : Shape := ⟨2, ![4096, 512]⟩

abbrev nBuf : Space → Nat
  | .hbm => 17
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x512, .f32⟩
  | .hbm, ⟨12, _⟩ => ⟨S256x512, .bf16⟩
  | .hbm, ⟨13, _⟩ => ⟨S512, .f32⟩
  | .hbm, ⟨14, _⟩ => ⟨S1x512, .f32⟩
  | .hbm, ⟨15, _⟩ => ⟨S131072x128, .f32⟩
  | .hbm, ⟨16, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x512, .bf16⟩
  | .local _ .vmem, ⟨7, _⟩ => ⟨S1x512, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S256x128_S256x128_S256x128_S256x128_S256x512_d1 : Shape.Concatenates [S256x128, S256x128, S256x128, S256x128] S256x512 1
  bitsLt_bf16_f32 : FTy.bits .bf16 < FTy.bits .f32
  concatenates_S128_S128_S128_S128_S512_d0 : Shape.Concatenates [S128, S128, S128, S128] S512 0
  shapeCasts_S512_S1x512 : S512.ShapeCasts S1x512
  inb_S4096x128_S4096x128_0_0 : ∀ a, (![0, 0] : Fin 2 → Nat) a + S4096x128.size a ≤ S4096x128.size a
  h_S4096x128 : 0 < S4096x128.numel
  concatenates_S4096x128_S4096x128_S4096x256_d1 : Shape.Concatenates [S4096x128, S4096x128] S4096x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S131072x128.size a
  hwx0_5 : ∀ i : grid0.Coords, EltTy.bits .f32 = 32 ∨ (Rect.block (s := S131072x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x128.size a ≤ S131072x128.size a
  hwx0_6 : ∀ i : grid0.Coords, EltTy.bits .f32 = 32 ∨ (Rect.block (s := S131072x128) S4096x128.size (cc0_transform_6 i) (hinb0_6 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S256x128 : Shape := ⟨2, ![256, 128]⟩
abbrev S128 : Shape := ⟨1, ![128]⟩
abbrev S131072x256 : Shape := ⟨2, ![131072, 256]⟩
abbrev S1x128 : Shape := ⟨2, ![1, 128]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S131072x256, .f32⟩
  | .hbm, ⟨12, _⟩ => ⟨S131072x128, .f32⟩
  | .hbm, ⟨13, _⟩ => ⟨S1x128, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S131072x128, .f32⟩
  | .hbm, ⟨20, _⟩ => ⟨S131072x128, .f32⟩
  | .hbm, ⟨21, _⟩ => ⟨S_, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S1x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S1x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S1x128, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S_, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x256_S256x128_S131072x128_1_0_0_1_n_n_wf : DotDims.WF S131072x256 S256x128 S131072x128 [1] [0] [0] [1] [] []

variable [Facts₀]

def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf

class Facts : Prop extends Facts₀ where

variable [Facts]
-- ==== Proof.BitsEntry.lean ====
/-
  The program up to its one region, and what the region finds.

  Before the region four host operations run: the four gates' weight matrices are laid side by side into one 256 by 512
  matrix and rounded to the matrix unit's input format, and the four biases are laid end to end into one row of 512.
  None of them writes an argument array, so the region finds every argument as launched. A window's BLOCK at a grid
  point is the piece of its array, as the region finds it, that the window's index map selects there. From any run of the
  region that ends with every staged input array as found and every other buffer as found, the program's frame
  follows: the eleven argument arrays end as they started.
-/
import proofs.«153721_j24756191494329_2_alg».proof.Proof.Gen.Kernel.Launch
import proofs.«153721_j24756191494329_2_alg».proof.Proof.Gen.Kernel.Skeleton
import proofs.«153721_j24756191494329_2_alg».proof.Proof.Gen.Kernel.Points
import Idealize.ShloMosaic.Lib.Pipeline.FrameBody
import Idealize.ShloMosaic.Lib.Ring
import Idealize.ShloMosaic.Lib.Tactic

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch memory after the four host operations. -/
abbrev entry (c : Dev nD) (b : Ref sig .tc) : Buf (Elt F) ((c : Thread nD τ).loc b) :=
  StableHlo.after hostOps0 (fun b => m (c, b)) b

/-- None of the four host operations allocates a buffer. -/
theorem hostOps0_fresh : (hostOps0 : List (HloOp τ sig (Elt F))).Forall fun op => op.fresh = ∅ := by
  simp only [List.Forall]; repeat' constructor

/-- The program is its host operations followed by the region, so the region starts from `entry`. -/
theorem toRegion (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes argument 0, so the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1, so the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2, so the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3, so the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4, so the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5, so the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6, so the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7, so the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8, so the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9, so the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10, so the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds the window's block at every point, whether the pipeline fetched it
    there or kept it from an earlier point (its block index has not moved since), for any proof data over the entry
    arrays that leaves the block in place. -/
theorem held0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current staging buffer holds the window's block at every point, whether the pipeline fetched it
    there or kept it from an earlier point (its block index has not moved since), for any proof data over the entry
    arrays that leaves the block in place. -/
theorem held1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current staging buffer holds the window's block at every point, whether the pipeline fetched it
    there or kept it from an earlier point (its block index has not moved since), for any proof data over the entry
    arrays that leaves the block in place. -/
theorem held2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current staging buffer holds the window's block at every point, whether the pipeline fetched it
    there or kept it from an earlier point (its block index has not moved since), for any proof data over the entry
    arrays that leaves the block in place. -/
theorem held3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current staging buffer holds the window's block at every point, whether the pipeline fetched it
    there or kept it from an earlier point (its block index has not moved since), for any proof data over the entry
    arrays that leaves the block in place. -/
theorem held4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## The frame from a run of the region -/

/-- The eleven argument arrays end as launched: the three staged row arrays because an input array ends as the region
    found it, the eight weight and bias arrays because the region never touches them; and the region found each as launched. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) h

end Cert.Kernel.Region

end
-- ==== Proof.BitsBody.lean ====
/-
  One run of the kernel body, on whole staging buffers.

  The body reads five blocks — a block of the input rows, of the previous output rows and of the previous cell state rows
  (4096 rows of 128 each), the fused weight matrix (256 by 512) and the fused bias row (1 by 512) — each through the
  rectangle that is its whole buffer. It writes the new cell state over the whole of one output buffer and the new output
  over the whole of the other; just before each write it also reads that output buffer, a value it never uses. So after
  the body the inputs' buffers hold what they held, and each output's buffer holds, everywhere, the value stored into it:
  a pure function of the five blocks read.
-/
import proofs.«153721_j24756191494329_2_alg».proof.Proof.Gen.Kernel.Launch
import proofs.«153721_j24756191494329_2_alg».proof.Proof.Gen.Kernel.Skeleton
import proofs.«153721_j24756191494329_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each is its whole buffer -/

abbrev wholeRows : Rect S4096x128 := Rect.unit (s := S4096x128) ![0, 0] S4096x128.size inb_S4096x128_S4096x128_0_0
abbrev wholeWeights : Rect S256x512 := Rect.unit (s := S256x512) ![0, 0] S256x512.size inb_S256x512_S256x512_0_0
abbrev wholeBias : Rect S1x512 := Rect.unit (s := S1x512) ![0, 0] S1x512.size inb_S1x512_S1x512_0_0

/-! ## What the body leaves in each output's buffer -/

/-- The new cell state's buffer after the body, from the five blocks read: its one store, over the whole buffer. -/
def stateBuf (x po pc : Vec F S4096x128 .f32) (w : Vec F S256x512 .bf16) (b : Vec F S1x512 .f32) : Vec F S4096x128 .f32 :=
  View.canon [⟨wholeRows, k0_pay2 (View.ld x wholeRows) (View.ld po wholeRows) (View.ld w wholeWeights) (View.ld b wholeBias) (View.ld pc wholeRows)⟩]

/-- The new output's buffer after the body, likewise. -/
def outputBuf (x po pc : Vec F S4096x128 .f32) (w : Vec F S256x512 .bf16) (b : Vec F S1x512 .f32) : Vec F S4096x128 .f32 :=
  View.canon [⟨wholeRows, k0_pay3 (View.ld x wholeRows) (View.ld po wholeRows) (View.ld w wholeWeights) (View.ld b wholeBias) (View.ld pc wholeRows)⟩]

/-- One store through the whole-buffer rectangle reaches every position of the buffer. -/
theorem whole_covers (p0 : Vec F S4096x128 .f32) (y : S4096x128.Idx) :
    ∃ pc ∈ ([⟨wholeRows, p0⟩] : List (View.Piece (Elt F) S4096x128 .f32)), y ∈ pc.1.set :=
  View.cover_of_tiled [⟨wholeRows, p0⟩] S4096x128.size (by rfl) y

/-! ## The body's triple -/

set_option maxHeartbeats 1000000 in
/-- The body on whole staging buffers — the five inputs' at known contents, the two outputs' at anything — runs to the
    continuation with the inputs' buffers as they were and each output's at its stored value. -/
theorem runs (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S256x512 .bf16) (harg4 : arg4.IsWhole)
    (arg5 : Memref sig .tc .vmem S1x512 .f32) (harg5 : arg5.IsWhole) (arg6 : Memref sig .tc .vmem S4096x128 .f32) (harg6 : arg6.IsWhole)
    (arg7 : Memref sig .tc .vmem S4096x128 .f32) (harg7 : arg7.IsWhole)
    (x po pc : Vec F S4096x128 .f32) (w : Vec F S256x512 .bf16) (b : Vec F S1x512 .f32) (K : PUnit → sProp 𝕄) :
    iprop(owns (c : Thread nD τ) arg1 fullShare x ∗ owns (c : Thread nD τ) arg2 fullShare po ∗ owns (c : Thread nD τ) arg3 fullShare pc
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare po ∗ owns (c : Thread nD τ) arg3 fullShare pc
            ∗ owns (c : Thread nD τ) arg4 fullShare w ∗ owns (c : Thread nD τ) arg5 fullShare b
            ∗ owns (c : Thread nD τ) arg6 fullShare (stateBuf x po pc w b) ∗ owns (c : Thread nD τ) arg7 fullShare (outputBuf x po pc w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_covers _)
  iexists _; isplitr
  swap; · iexact H6
  ipureintro
  exact View.read_writes_eq_canon _ _ _ (whole_covers _)

end Cert.Kernel.Body

end
-- ==== Proof.BitsRun.lean ====
/-
  The region's run, point by point, and the program's frame.

  At every grid point the five input windows' buffers hold their blocks of the arrays the region found, and the body
  leaves them so; the two output windows' buffers are left holding the stored new cell state and new output, each a
  function of the five input blocks at that point. Nothing is carried from one point to the next. With this as the
  pipeline's proof data the body's triple discharges the pipeline's obligation at every point, the library's frame run
  applies, and every weakly fair execution of the program ends with each output array at what the points wrote back and
  every argument array as launched.
-/
import proofs.«153721_j24756191494329_2_alg».proof.Proof.BitsEntry
import proofs.«153721_j24756191494329_2_alg».proof.Proof.BitsBody

set_option maxRecDepth 16384

noncomputable section

namespace Cert.Kernel.Whole

open Cert.Kernel Cert.Kernel.Gen Cert.Kernel.Region Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at its stored value of the five input blocks; the invariant is the untouched rest of the core; nothing
    is owed and every share is whole. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => stateBuf (block m c 0 t) (block m c 1 t) (block m c 2 t) (block m c 3 t) (block m c 4 t)
    | ⟨6, _⟩ => outputBuf (block m c 0 t) (block m c 1 t) (block m c 2 t) (block m c 3 t) (block m c 4 t)
  Φ _ := Pipeline.ΦA spec0 c
  q _ := fullShare
  owed _ := 0

/-- The proof data's arrays are the region-entry contents (the definition projected, never unfolded through). -/
theorem A_eq (c : Dev nD) (w : Fin cfg0.W) : (dats m 0 c).A w = entry m c (Pipeline.arrRef spec0 w) := by
  dsimp only [dats]

theorem after0 (c : Dev nD) (t : Fin cfg0.N) : (dats m 0 c).after 0 t = block m c 0 t := by dsimp only [dats]
theorem after1 (c : Dev nD) (t : Fin cfg0.N) : (dats m 0 c).after 1 t = block m c 1 t := by dsimp only [dats]
theorem after2 (c : Dev nD) (t : Fin cfg0.N) : (dats m 0 c).after 2 t = block m c 2 t := by dsimp only [dats]
theorem after3 (c : Dev nD) (t : Fin cfg0.N) : (dats m 0 c).after 3 t = block m c 3 t := by dsimp only [dats]
theorem after4 (c : Dev nD) (t : Fin cfg0.N) : (dats m 0 c).after 4 t = block m c 4 t := by dsimp only [dats]
/-- The new cell state's buffer after the body at point `t`. -/
theorem after5 (c : Dev nD) (t : Fin cfg0.N) : (dats m 0 c).after 5 t = stateBuf (block m c 0 t) (block m c 1 t) (block m c 2 t) (block m c 3 t) (block m c 4 t) := by dsimp only [dats]
/-- The new output's buffer after the body at point `t`. -/
theorem after6 (c : Dev nD) (t : Fin cfg0.N) : (dats m 0 c).after 6 t = outputBuf (block m c 0 t) (block m c 1 t) (block m c 2 t) (block m c 3 t) (block m c 4 t) := by dsimp only [dats]

/-- Each input's current buffer holds its block when the body is called. -/
theorem held0 (c : Dev nD) (t : Fin cfg0.N) (d) : (dats m 0 c).before 0 t d = block m c 0 t := held0_of m (dats m 0 c) (A_eq m c 0) (after0 m c) t d
theorem held1 (c : Dev nD) (t : Fin cfg0.N) (d) : (dats m 0 c).before 1 t d = block m c 1 t := held1_of m (dats m 0 c) (A_eq m c 1) (after1 m c) t d
theorem held2 (c : Dev nD) (t : Fin cfg0.N) (d) : (dats m 0 c).before 2 t d = block m c 2 t := held2_of m (dats m 0 c) (A_eq m c 2) (after2 m c) t d
theorem held3 (c : Dev nD) (t : Fin cfg0.N) (d) : (dats m 0 c).before 3 t d = block m c 3 t := held3_of m (dats m 0 c) (A_eq m c 3) (after3 m c) t d
theorem held4 (c : Dev nD) (t : Fin cfg0.N) (d) : (dats m 0 c).before 4 t d = block m c 4 t := held4_of m (dats m 0 c) (A_eq m c 4) (after4 m c) t d

/-! ## The body obligation at a generic point -/

/-- What the body is called with at point `t`: the invariant, the core's dues, and the seven windows' current buffers. -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem call_sound (c : Dev nD) (t : Fin cfg0.N) :
    callPre m c t ⊢ wp frame (wpE (defs₀ (F := F)) Variants.none c none) Set.univ (bodyAt0 t) (fun _ => callPost m c t) := by
  unfold callPre callPost bodyAt0
  simp only [held0, held1, held2, held3, held4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runs c Set.univ (grid0.coords t) _ _ _ _ _ _ _ _ _ _ _ _ _ _ (block m c 0 t) (block m c 1 t) (block m c 2 t) (block m c 3 t) (block m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on its body, at every point. -/
theorem obligation (c : Dev nD) : BodyObligation (dats (F := F) m 0 c) (defs₀ (F := F)) Variants.none () Set.univ := fun t => by
  rw [bigSep_W0, bigSep_W0]
  exact call_sound m c t

/-! ## The run and the frame -/

set_option backward.isDefEq.respectTransparency.types false in
/-- Every weakly fair execution of the program terminates, and at the end every array of the pipeline holds what the
    library computes from the proof data and every other unscoped buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := entry m) (hmain := toRegion m Variants.none) (hA := A_eq m) (hΦ := fun _ _ => rfl)

/-- The program's frame, at any float instance: it runs to the end and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Whole

end
-- ==== Proof.IdealEntry.lean ====
/-
  The program up to its one region, and what the region finds.

  Before the region four host operations run: the four gates' weight matrices are laid side by side into one 256 by 512
  matrix and rounded to the matrix unit's input format, and the four biases are laid end to end into one row of 512.
  None of them writes an argument array, so the region finds every argument as launched. A window's BLOCK at a grid
  point is the piece of its array, as the region finds it, that the window's index map selects there. From any run of the
  region that ends with every staged input array as found and every other buffer as found, the program's frame
  follows: the eleven argument arrays end as they started.
-/
import proofs.«153721_j24756191494329_2_alg».proof.Proof.Gen.KernelIdeal.Launch
import proofs.«153721_j24756191494329_2_alg».proof.Proof.Gen.KernelIdeal.Skeleton
import proofs.«153721_j24756191494329_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch memory after the four host operations. -/
abbrev entry (c : Dev nD) (b : Ref sig .tc) : Buf (Elt F) ((c : Thread nD τ).loc b) :=
  StableHlo.after hostOps0 (fun b => m (c, b)) b

/-- None of the four host operations allocates a buffer. -/
theorem hostOps0_fresh : (hostOps0 : List (HloOp τ sig (Elt F))).Forall fun op => op.fresh = ∅ := by
  simp only [List.Forall]; repeat' constructor

/-- The program is its host operations followed by the region, so the region starts from `entry`. -/
theorem toRegion (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation before the region writes argument 0, so the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1, so the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2, so the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3, so the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4, so the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5, so the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6, so the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7, so the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8, so the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9, so the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10, so the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds the window's block at every point, whether the pipeline fetched it
    there or kept it from an earlier point (its block index has not moved since), for any proof data over the entry
    arrays that leaves the block in place. -/
theorem held0_of {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current staging buffer holds the window's block at every point, whether the pipeline fetched it
    there or kept it from an earlier point (its block index has not moved since), for any proof data over the entry
    arrays that leaves the block in place. -/
theorem held1_of {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current staging buffer holds the window's block at every point, whether the pipeline fetched it
    there or kept it from an earlier point (its block index has not moved since), for any proof data over the entry
    arrays that leaves the block in place. -/
theorem held2_of {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current staging buffer holds the window's block at every point, whether the pipeline fetched it
    there or kept it from an earlier point (its block index has not moved since), for any proof data over the entry
    arrays that leaves the block in place. -/
theorem held3_of {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current staging buffer holds the window's block at every point, whether the pipeline fetched it
    there or kept it from an earlier point (its block index has not moved since), for any proof data over the entry
    arrays that leaves the block in place. -/
theorem held4_of {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## The frame from a run of the region -/

/-- The eleven argument arrays end as launched: the three staged row arrays because an input array ends as the region
    found it, the eight weight and bias arrays because the region never touches them; and the region found each as launched. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c)⟩) h

end Cert.KernelIdeal.Region

end
-- ==== Proof.IdealBody.lean ====
/-
  One run of the kernel body, on whole staging buffers.

  The body reads five blocks — a block of the input rows, of the previous output rows and of the previous cell state rows
  (4096 rows of 128 each), the fused weight matrix (256 by 512) and the fused bias row (1 by 512) — each through the
  rectangle that is its whole buffer. It writes the new cell state over the whole of one output buffer and the new output
  over the whole of the other; just before each write it also reads that output buffer, a value it never uses. So after
  the body the inputs' buffers hold what they held, and each output's buffer holds, everywhere, the value stored into it:
  a pure function of the five blocks read.
-/
import proofs.«153721_j24756191494329_2_alg».proof.Proof.Gen.KernelIdeal.Launch
import proofs.«153721_j24756191494329_2_alg».proof.Proof.Gen.KernelIdeal.Skeleton
import proofs.«153721_j24756191494329_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through: each is its whole buffer -/

abbrev wholeRows : Rect S4096x128 := Rect.unit (s := S4096x128) ![0, 0] S4096x128.size inb_S4096x128_S4096x128_0_0
abbrev wholeWeights : Rect S256x512 := Rect.unit (s := S256x512) ![0, 0] S256x512.size inb_S256x512_S256x512_0_0
abbrev wholeBias : Rect S1x512 := Rect.unit (s := S1x512) ![0, 0] S1x512.size inb_S1x512_S1x512_0_0

/-! ## What the body leaves in each output's buffer -/

/-- The new cell state's buffer after the body, from the five blocks read: its one store, over the whole buffer. -/
def stateBuf (x po pc : Vec F S4096x128 .f32) (w : Vec F S256x512 .bf16) (b : Vec F S1x512 .f32) : Vec F S4096x128 .f32 :=
  View.canon [⟨wholeRows, k0_pay2 (View.ld x wholeRows) (View.ld po wholeRows) (View.ld w wholeWeights) (View.ld b wholeBias) (View.ld pc wholeRows)⟩]

/-- The new output's buffer after the body, likewise. -/
def outputBuf (x po pc : Vec F S4096x128 .f32) (w : Vec F S256x512 .bf16) (b : Vec F S1x512 .f32) : Vec F S4096x128 .f32 :=
  View.canon [⟨wholeRows, k0_pay3 (View.ld x wholeRows) (View.ld po wholeRows) (View.ld w wholeWeights) (View.ld b wholeBias) (View.ld pc wholeRows)⟩]

/-- One store through the whole-buffer rectangle reaches every position of the buffer. -/
theorem whole_covers (p0 : Vec F S4096x128 .f32) (y : S4096x128.Idx) :
    ∃ pc ∈ ([⟨wholeRows, p0⟩] : List (View.Piece (Elt F) S4096x128 .f32)), y ∈ pc.1.set :=
  View.cover_of_tiled [⟨wholeRows, p0⟩] S4096x128.size (by rfl) y

/-! ## The body's triple -/

set_option maxHeartbeats 1000000 in
/-- The body on whole staging buffers — the five inputs' at known contents, the two outputs' at anything — runs to the
    continuation with the inputs' buffers as they were and each output's at its stored value. -/
theorem runs (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S256x512 .bf16) (harg4 : arg4.IsWhole)
    (arg5 : Memref sig .tc .vmem S1x512 .f32) (harg5 : arg5.IsWhole) (arg6 : Memref sig .tc .vmem S4096x128 .f32) (harg6 : arg6.IsWhole)
    (arg7 : Memref sig .tc .vmem S4096x128 .f32) (harg7 : arg7.IsWhole)
    (x po pc : Vec F S4096x128 .f32) (w : Vec F S256x512 .bf16) (b : Vec F S1x512 .f32) (K : PUnit → sProp 𝕄) :
    iprop(owns (c : Thread nD τ) arg1 fullShare x ∗ owns (c : Thread nD τ) arg2 fullShare po ∗ owns (c : Thread nD τ) arg3 fullShare pc
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare po ∗ owns (c : Thread nD τ) arg3 fullShare pc
            ∗ owns (c : Thread nD τ) arg4 fullShare w ∗ owns (c : Thread nD τ) arg5 fullShare b
            ∗ owns (c : Thread nD τ) arg6 fullShare (stateBuf x po pc w b) ∗ owns (c : Thread nD τ) arg7 fullShare (outputBuf x po pc w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (whole_covers _)
  iexists _; isplitr
  swap; · iexact H6
  ipureintro
  exact View.read_writes_eq_canon _ _ _ (whole_covers _)

end Cert.KernelIdeal.Body

end
-- ==== Proof.IdealRun.lean ====
/-
  The region's run, point by point, and the program's frame.

  At every grid point the five input windows' buffers hold their blocks of the arrays the region found, and the body
  leaves them so; the two output windows' buffers are left holding the stored new cell state and new output, each a
  function of the five input blocks at that point. Nothing is carried from one point to the next. With this as the
  pipeline's proof data the body's triple discharges the pipeline's obligation at every point, the library's frame run
  applies, and every weakly fair execution of the program ends with each output array at what the points wrote back and
  every argument array as launched.
-/
import proofs.«153721_j24756191494329_2_alg».proof.Proof.IdealEntry
import proofs.«153721_j24756191494329_2_alg».proof.Proof.IdealBody

set_option maxRecDepth 16384

noncomputable section

namespace Cert.KernelIdeal.Whole

open Cert.KernelIdeal Cert.KernelIdeal.Gen Cert.KernelIdeal.Region Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at its stored value of the five input blocks; the invariant is the untouched rest of the core; nothing
    is owed and every share is whole. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => stateBuf (block m c 0 t) (block m c 1 t) (block m c 2 t) (block m c 3 t) (block m c 4 t)
    | ⟨6, _⟩ => outputBuf (block m c 0 t) (block m c 1 t) (block m c 2 t) (block m c 3 t) (block m c 4 t)
  Φ _ := Pipeline.ΦA spec0 c
  q _ := fullShare
  owed _ := 0

/-- The proof data's arrays are the region-entry contents (the definition projected, never unfolded through). -/
theorem A_eq (c : Dev nD) (w : Fin cfg0.W) : (dats m 0 c).A w = entry m c (Pipeline.arrRef spec0 w) := by
  dsimp only [dats]

theorem after0 (c : Dev nD) (t : Fin cfg0.N) : (dats m 0 c).after 0 t = block m c 0 t := by dsimp only [dats]
theorem after1 (c : Dev nD) (t : Fin cfg0.N) : (dats m 0 c).after 1 t = block m c 1 t := by dsimp only [dats]
theorem after2 (c : Dev nD) (t : Fin cfg0.N) : (dats m 0 c).after 2 t = block m c 2 t := by dsimp only [dats]
theorem after3 (c : Dev nD) (t : Fin cfg0.N) : (dats m 0 c).after 3 t = block m c 3 t := by dsimp only [dats]
theorem after4 (c : Dev nD) (t : Fin cfg0.N) : (dats m 0 c).after 4 t = block m c 4 t := by dsimp only [dats]
/-- The new cell state's buffer after the body at point `t`. -/
theorem after5 (c : Dev nD) (t : Fin cfg0.N) : (dats m 0 c).after 5 t = stateBuf (block m c 0 t) (block m c 1 t) (block m c 2 t) (block m c 3 t) (block m c 4 t) := by dsimp only [dats]
/-- The new output's buffer after the body at point `t`. -/
theorem after6 (c : Dev nD) (t : Fin cfg0.N) : (dats m 0 c).after 6 t = outputBuf (block m c 0 t) (block m c 1 t) (block m c 2 t) (block m c 3 t) (block m c 4 t) := by dsimp only [dats]

/-- Each input's current buffer holds its block when the body is called. -/
theorem held0 (c : Dev nD) (t : Fin cfg0.N) (d) : (dats m 0 c).before 0 t d = block m c 0 t := held0_of m (dats m 0 c) (A_eq m c 0) (after0 m c) t d
theorem held1 (c : Dev nD) (t : Fin cfg0.N) (d) : (dats m 0 c).before 1 t d = block m c 1 t := held1_of m (dats m 0 c) (A_eq m c 1) (after1 m c) t d
theorem held2 (c : Dev nD) (t : Fin cfg0.N) (d) : (dats m 0 c).before 2 t d = block m c 2 t := held2_of m (dats m 0 c) (A_eq m c 2) (after2 m c) t d
theorem held3 (c : Dev nD) (t : Fin cfg0.N) (d) : (dats m 0 c).before 3 t d = block m c 3 t := held3_of m (dats m 0 c) (A_eq m c 3) (after3 m c) t d
theorem held4 (c : Dev nD) (t : Fin cfg0.N) (d) : (dats m 0 c).before 4 t d = block m c 4 t := held4_of m (dats m 0 c) (A_eq m c 4) (after4 m c) t d

/-! ## The body obligation at a generic point -/

/-- What the body is called with at point `t`: the invariant, the core's dues, and the seven windows' current buffers. -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem call_sound (c : Dev nD) (t : Fin cfg0.N) :
    callPre m c t ⊢ wp frame (wpE (defs₀ (F := F)) Variants.none c none) Set.univ (bodyAt0 t) (fun _ => callPost m c t) := by
  unfold callPre callPost bodyAt0
  simp only [held0, held1, held2, held3, held4]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runs c Set.univ (grid0.coords t) _ _ _ _ _ _ _ _ _ _ _ _ _ _ (block m c 0 t) (block m c 1 t) (block m c 2 t) (block m c 3 t) (block m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on its body, at every point. -/
theorem obligation (c : Dev nD) : BodyObligation (dats (F := F) m 0 c) (defs₀ (F := F)) Variants.none () Set.univ := fun t => by
  rw [bigSep_W0, bigSep_W0]
  exact call_sound m c t

/-! ## The run and the frame -/

set_option backward.isDefEq.respectTransparency.types false in
/-- Every weakly fair execution of the program terminates, and at the end every array of the pipeline holds what the
    library computes from the proof data and every other unscoped buffer what the region found. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (obligation m c).loose) (hshare := fun c => (dats m 0 c).share_full fun _ => rfl)
    (howed := fun _ _ => rfl) (V := entry m) (hmain := toRegion m Variants.none) (hA := A_eq m) (hΦ := fun _ _ => rfl)

/-- The program's frame, at any float instance: it runs to the end and its eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Whole

end
-- ==== Proof.IdealFused.lean ====
/-
  What the region finds in the fused weight matrix and the fused bias row.

  Before the region the four gates' weight matrices (each 256 by 128) are laid side by side along the columns into one
  256 by 512 matrix, which is then rounded to the matrix unit's input format — at the ideal instance a change of format
  is the identity. So column `128 g + j` of the fused matrix is column `j` of gate `g`'s matrix, for g = 0 (forget),
  1 (input, sigmoid branch), 2 (input, tanh branch), 3 (output). Likewise the four biases (128 entries each) are laid
  end to end into 512 entries and given a leading axis of size one: entry `(0, 128 g + j)` of the fused row is entry `j`
  of gate `g`'s bias.
-/
import proofs.«153721_j24756191494329_2_alg».proof.Proof.IdealEntry
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Fused

open Cert.KernelIdeal Cert.KernelIdeal.Gen Cert.KernelIdeal.Region
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The four gates' weight matrices, in the order they are laid side by side. -/
abbrev weightPieces (c : Dev nD) : List ((s : Shape) × (s.Idx → EReal)) :=
  [⟨S256x128, m ((c : Thread nD τ).loc main_arg3)⟩, ⟨S256x128, m ((c : Thread nD τ).loc main_arg5)⟩, ⟨S256x128, m ((c : Thread nD τ).loc main_arg7)⟩, ⟨S256x128, m ((c : Thread nD τ).loc main_arg9)⟩]

/-- The four gates' biases, in the order they are laid end to end. -/
abbrev biasPieces (c : Dev nD) : List ((s : Shape) × (s.Idx → EReal)) :=
  [⟨S128, m ((c : Thread nD τ).loc main_arg4)⟩, ⟨S128, m ((c : Thread nD τ).loc main_arg6)⟩, ⟨S128, m ((c : Thread nD τ).loc main_arg8)⟩, ⟨S128, m ((c : Thread nD τ).loc main_arg10)⟩]

/-- The fused weight matrix as the region finds it: the four matrices side by side, rounded. -/
theorem fusedWeights (c : Dev nD) :
    (entry m c main_v1 : S256x512.Idx → EReal)
      = truncf (F := Ideal) .bf16 (concatenate S256x512 1 (weightPieces m c) Facts₀.concatenates_S256x128_S256x128_S256x128_S256x128_S256x512_d1) Facts₀.bitsLt_bf16_f32 := by
  dsimp only [entry, hostOps0]; after_results; rfl

/-- The fused bias row as the region finds it: the four biases end to end, under a leading axis of size one. -/
theorem fusedBias (c : Dev nD) :
    (entry m c main_v3 : S1x512.Idx → EReal)
      = shapeCast S1x512 (concatenate S512 0 (biasPieces m c) Facts₀.concatenates_S128_S128_S128_S128_S512_d0) Facts₀.shapeCasts_S512_S1x512 := by
  dsimp only [entry, hostOps0]; after_results; rfl

/-! ## A column of the fused matrix is a column of one gate's matrix -/

/-- Columns 0 to 127 are the forget gate's. -/
theorem weights_forget (c : Dev nD) (k : Fin 256) (j : Fin 128) :
    entry m c main_v1 (ix2 k ⟨j.val, by omega⟩) = m ((c : Thread nD τ).loc main_arg3) (ix2 k j) :=
  (congrFun (fusedWeights m c) _).trans
    (concatenate_apply_piece (t := S256x512) (1 : Fin 2) (weightPieces m c) Facts₀.concatenates_S256x128_S256x128_S256x128_S256x128_S256x512_d1
      (ix2 k ⟨j.val, by omega⟩) 0 (by show (0 : Nat) < 4; omega) S256x128 (m ((c : Thread nD τ).loc main_arg3)) rfl rfl 0 (by rfl) (ix2 k j)
      (fun b hb => match b, hb with
        | ⟨0, _⟩, _ => rfl
        | ⟨1, _⟩, hb => absurd rfl hb) (Nat.zero_add _))
/-- Columns 128 to 255 are the input gate's sigmoid branch's. -/
theorem weights_inputSig (c : Dev nD) (k : Fin 256) (j : Fin 128) :
    entry m c main_v1 (ix2 k ⟨128 + j.val, by omega⟩) = m ((c : Thread nD τ).loc main_arg5) (ix2 k j) :=
  (congrFun (fusedWeights m c) _).trans
    (concatenate_apply_piece (t := S256x512) (1 : Fin 2) (weightPieces m c) Facts₀.concatenates_S256x128_S256x128_S256x128_S256x128_S256x512_d1
      (ix2 k ⟨128 + j.val, by omega⟩) 1 (by show (1 : Nat) < 4; omega) S256x128 (m ((c : Thread nD τ).loc main_arg5)) rfl rfl 128 (by rfl) (ix2 k j)
      (fun b hb => match b, hb with
        | ⟨0, _⟩, _ => rfl
        | ⟨1, _⟩, hb => absurd rfl hb) rfl)
/-- Columns 256 to 383 are the input gate's tanh branch's. -/
theorem weights_inputTanh (c : Dev nD) (k : Fin 256) (j : Fin 128) :
    entry m c main_v1 (ix2 k ⟨256 + j.val, by omega⟩) = m ((c : Thread nD τ).loc main_arg7) (ix2 k j) :=
  (congrFun (fusedWeights m c) _).trans
    (concatenate_apply_piece (t := S256x512) (1 : Fin 2) (weightPieces m c) Facts₀.concatenates_S256x128_S256x128_S256x128_S256x128_S256x512_d1
      (ix2 k ⟨256 + j.val, by omega⟩) 2 (by show (2 : Nat) < 4; omega) S256x128 (m ((c : Thread nD τ).loc main_arg7)) rfl rfl 256 (by rfl) (ix2 k j)
      (fun b hb => match b, hb with
        | ⟨0, _⟩, _ => rfl
        | ⟨1, _⟩, hb => absurd rfl hb) rfl)
/-- Columns 384 to 511 are the output gate's. -/
theorem weights_output (c : Dev nD) (k : Fin 256) (j : Fin 128) :
    entry m c main_v1 (ix2 k ⟨384 + j.val, by omega⟩) = m ((c : Thread nD τ).loc main_arg9) (ix2 k j) :=
  (congrFun (fusedWeights m c) _).trans
    (concatenate_apply_piece (t := S256x512) (1 : Fin 2) (weightPieces m c) Facts₀.concatenates_S256x128_S256x128_S256x128_S256x128_S256x512_d1
      (ix2 k ⟨384 + j.val, by omega⟩) 3 (by show (3 : Nat) < 4; omega) S256x128 (m ((c : Thread nD τ).loc main_arg9)) rfl rfl 384 (by rfl) (ix2 k j)
      (fun b hb => match b, hb with
        | ⟨0, _⟩, _ => rfl
        | ⟨1, _⟩, hb => absurd rfl hb) rfl)

/-! ## An entry of the fused row is an entry of one gate's bias -/

/-- Entries 0 to 127 are the forget gate's. -/
theorem bias_forget (c : Dev nD) (j : Fin 128) :
    entry m c main_v3 (ix2 (0 : Fin 1) ⟨j.val, by omega⟩) = m ((c : Thread nD τ).loc main_arg4) (ix1 j) :=
  (congrFun (fusedBias m c) _).trans
    ((shapeCast_a_1a_apply (concatenate S512 0 (biasPieces m c) Facts₀.concatenates_S128_S128_S128_S128_S512_d0) Facts₀.shapeCasts_S512_S1x512 (0 : Fin 1) ⟨j.val, by omega⟩).trans
      (concatenate_apply_piece (t := S512) (0 : Fin 1) (biasPieces m c) Facts₀.concatenates_S128_S128_S128_S128_S512_d0
        (ix1 ⟨j.val, by omega⟩) 0 (by show (0 : Nat) < 4; omega) S128 (m ((c : Thread nD τ).loc main_arg4)) rfl rfl 0 (by rfl) (ix1 j)
        (fun b hb => absurd (Subsingleton.elim _ _) hb) (Nat.zero_add _)))
/-- Entries 128 to 255 are the input gate's sigmoid branch's. -/
theorem bias_inputSig (c : Dev nD) (j : Fin 128) :
    entry m c main_v3 (ix2 (0 : Fin 1) ⟨128 + j.val, by omega⟩) = m ((c : Thread nD τ).loc main_arg6) (ix1 j) :=
  (congrFun (fusedBias m c) _).trans
    ((shapeCast_a_1a_apply (concatenate S512 0 (biasPieces m c) Facts₀.concatenates_S128_S128_S128_S128_S512_d0) Facts₀.shapeCasts_S512_S1x512 (0 : Fin 1) ⟨128 + j.val, by omega⟩).trans
      (concatenate_apply_piece (t := S512) (0 : Fin 1) (biasPieces m c) Facts₀.concatenates_S128_S128_S128_S128_S512_d0
        (ix1 ⟨128 + j.val, by omega⟩) 1 (by show (1 : Nat) < 4; omega) S128 (m ((c : Thread nD τ).loc main_arg6)) rfl rfl 128 (by rfl) (ix1 j)
        (fun b hb => absurd (Subsingleton.elim _ _) hb) rfl))
/-- Entries 256 to 383 are the input gate's tanh branch's. -/
theorem bias_inputTanh (c : Dev nD) (j : Fin 128) :
    entry m c main_v3 (ix2 (0 : Fin 1) ⟨256 + j.val, by omega⟩) = m ((c : Thread nD τ).loc main_arg8) (ix1 j) :=
  (congrFun (fusedBias m c) _).trans
    ((shapeCast_a_1a_apply (concatenate S512 0 (biasPieces m c) Facts₀.concatenates_S128_S128_S128_S128_S512_d0) Facts₀.shapeCasts_S512_S1x512 (0 : Fin 1) ⟨256 + j.val, by omega⟩).trans
      (concatenate_apply_piece (t := S512) (0 : Fin 1) (biasPieces m c) Facts₀.concatenates_S128_S128_S128_S128_S512_d0
        (ix1 ⟨256 + j.val, by omega⟩) 2 (by show (2 : Nat) < 4; omega) S128 (m ((c : Thread nD τ).loc main_arg8)) rfl rfl 256 (by rfl) (ix1 j)
        (fun b hb => absurd (Subsingleton.elim _ _) hb) rfl))
/-- Entries 384 to 511 are the output gate's. -/
theorem bias_output (c : Dev nD) (j : Fin 128) :
    entry m c main_v3 (ix2 (0 : Fin 1) ⟨384 + j.val, by omega⟩) = m ((c : Thread nD τ).loc main_arg10) (ix1 j) :=
  (congrFun (fusedBias m c) _).trans
    ((shapeCast_a_1a_apply (concatenate S512 0 (biasPieces m c) Facts₀.concatenates_S128_S128_S128_S128_S512_d0) Facts₀.shapeCasts_S512_S1x512 (0 : Fin 1) ⟨384 + j.val, by omega⟩).trans
      (concatenate_apply_piece (t := S512) (0 : Fin 1) (biasPieces m c) Facts₀.concatenates_S128_S128_S128_S128_S512_d0
        (ix1 ⟨384 + j.val, by omega⟩) 3 (by show (3 : Nat) < 4; omega) S128 (m ((c : Thread nD τ).loc main_arg10)) rfl rfl 384 (by rfl) (ix1 j)
        (fun b hb => absurd (Subsingleton.elim _ _) hb) rfl))

end Cert.KernelIdeal.Fused

end
-- ==== Proof.CellSpec.lean ====
/-
  The recurrent cell's update, entry by entry, on the extended reals.

  A batch row `r` has a JOINED input of 256 entries: the 128 entries of row `r` of the input `x`, then the 128 entries of
  row `r` of the previous output `po`. Each of the four gates (forget, input-sigmoid, input-tanh, output) has a weight
  matrix `W` of 256 rows and 128 columns and a bias `b` of 128 entries; its PRE-ACTIVATION at row `r`, column `j` is the
  joined row against column `j` of `W` — the sum over the 256 joined positions — plus `b j`.
  The new cell state is  sigmoid(forget) · previous state + sigmoid(input-sigmoid) · tanh(input-tanh),
  and the new output is  tanh(new state) · sigmoid(output).
  The sigmoid is `Ideal.logistic`, which is 1 / (1 + e^(-s)) at every extended real (0 at -inf, 1 at +inf).

  Nothing here needs the entries to be finite: both programs compute these same sums of these same products, so the
  statement is about terms, not about their values.
-/
import Idealize.ShloMosaic.PureOps.Ideal
import Idealize.ShloMosaic.Lib.ValueIdx

noncomputable section

open scoped BigOperators

namespace Cert.CellSpec

open Idealize.ShloMosaic Idealize.ShloMosaic.ValueIdx

/-- A batch-by-feature array: 131072 rows of 128 entries. -/
abbrev Rows : Type := (⟨2, ![131072, 128]⟩ : Shape).Idx → EReal
/-- A gate's weight matrix: 256 joined positions by 128 columns. -/
abbrev Weights : Type := (⟨2, ![256, 128]⟩ : Shape).Idx → EReal
/-- A gate's bias: 128 entries. -/
abbrev Bias : Type := (⟨1, ![128]⟩ : Shape).Idx → EReal

/-- Position `k` of the joined row `r`: `x`'s entry for `k < 128`, the previous output's entry `k - 128` after that. -/
def joined (x po : Rows) (r : Fin 131072) (k : Fin 256) : EReal :=
  if h : k.val < 128 then x (ix2 r ⟨k.val, h⟩) else po (ix2 r ⟨k.val - 128, by omega⟩)

/-- A gate's pre-activation at row `r`, column `j`: the joined row against column `j` of the weights, plus the bias. -/
def gatePre (x po : Rows) (W : Weights) (b : Bias) (r : Fin 131072) (j : Fin 128) : EReal :=
  (∑ k : Fin 256, joined x po r k * W (ix2 k j)) + b (ix1 j)

/-- The new cell state at row `r`, column `j`. -/
def newState (x po pc : Rows) (Wf : Weights) (bf : Bias) (Wis : Weights) (bis : Bias) (Wit : Weights) (bit : Bias)
    (r : Fin 131072) (j : Fin 128) : EReal :=
  Ideal.logistic (gatePre x po Wf bf r j) * pc (ix2 r j)
    + Ideal.logistic (gatePre x po Wis bis r j) * Ideal.tanh (gatePre x po Wit bit r j)

/-- The new output at row `r`, column `j`. -/
def newOutput (x po pc : Rows) (Wf : Weights) (bf : Bias) (Wis : Weights) (bis : Bias) (Wit : Weights) (bit : Bias)
    (Wo : Weights) (bo : Bias) (r : Fin 131072) (j : Fin 128) : EReal :=
  Ideal.tanh (newState x po pc Wf bf Wis bis Wit bit r j) * Ideal.logistic (gatePre x po Wo bo r j)

/-- The new cell state as a whole array. -/
def stateArr (x po pc : Rows) (Wf : Weights) (bf : Bias) (Wis : Weights) (bis : Bias) (Wit : Weights) (bit : Bias) : Rows :=
  fun i => newState x po pc Wf bf Wis bis Wit bit (i 0) (i 1)

/-- The new output as a whole array. -/
def outputArr (x po pc : Rows) (Wf : Weights) (bf : Bias) (Wis : Weights) (bis : Bias) (Wit : Weights) (bit : Bias)
    (Wo : Weights) (bo : Bias) : Rows :=
  fun i => newOutput x po pc Wf bf Wis bis Wit bit Wo bo (i 0) (i 1)

end Cert.CellSpec

end
-- ==== Proof.BodyIsCell.lean ====
/-
  The kernel body's two stored values, read at one index on the extended reals, are the recurrent cell's new state and
  new output.

  The body forms ONE wide pre-activation array of 512 columns: the joined row (the block of the input, then the block of
  the previous output, 256 entries) against the fused weight matrix, plus the fused bias row broadcast over the rows.
  Columns 0..127, 128..255, 256..383, 384..511 of it are the forget, input-sigmoid, input-tanh and output gates'
  pre-activations. Narrowing the format is the identity on the extended reals, the contraction into a zero accumulator
  is the plain sum over the 256 joined positions, and the sigmoid and the hyperbolic tangent act entry by entry; so once
  the loaded blocks are known to be the matching entries of the whole arrays (the hypotheses), each stored entry is the
  specification's term.
-/
import proofs.«153721_j24756191494329_2_alg».proof.Proof.Gen.KernelIdeal.Skeleton
import proofs.«153721_j24756191494329_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BodyIsCell

open Idealize.ShloMosaic Idealize.SL.Sem Idealize.ShloMosaic.ValueIdx
open Cert.KernelIdeal Cert.KernelIdeal.Gen Cert.CellSpec
open Cert.KernelIdeal.Facts₀ Cert.KernelIdeal.Facts

variable [Cert.KernelIdeal.Facts]

/-! ## The contraction's operand indices: at output (r, c) and contraction position k they are (r, k) and (k, c) -/

theorem lhs_0 (i : S4096x512.Idx) (q : dot_S4096x256_S256x512_S4096x512_1_0_0_1_n_n.contr.Idx) :
    (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide),
    dif_pos (show (0 : Fin S4096x256.rank) ∈ dot_S4096x256_S256x512_S4096x512_1_0_0_1_n_n.lhsNonContracting by decide)]
  rfl

theorem lhs_1 (i : S4096x512.Idx) (q : dot_S4096x256_S256x512_S4096x512_1_0_0_1_n_n.contr.Idx) :
    (dot_S4096x256_S256x512_S4096x512_1_0_0_1_n_n.lhsIdx i q 1).val = (q ⟨0, by decide⟩).val :=
  dot_S4096x256_S256x512_S4096x512_1_0_0_1_n_n.lhsIdx_val_of_single rfl i q

theorem rhs_0 (i : S4096x512.Idx) (q : dot_S4096x256_S256x512_S4096x512_1_0_0_1_n_n.contr.Idx) :
    (dot_S4096x256_S256x512_S4096x512_1_0_0_1_n_n.rhsIdx i q 0).val = (q ⟨0, by decide⟩).val :=
  dot_S4096x256_S256x512_S4096x512_1_0_0_1_n_n.rhsIdx_val_of_single rfl i q

theorem rhs_1 (i : S4096x512.Idx) (q : dot_S4096x256_S256x512_S4096x512_1_0_0_1_n_n.contr.Idx) :
    (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide),
    dif_pos (show (1 : Fin S256x512.rank) ∈ dot_S4096x256_S256x512_S4096x512_1_0_0_1_n_n.rhsNonContracting by decide)]
  rfl

/-! ## The wide pre-activation array at row r, column c -/

/-- Entry (r, c) of the wide pre-activation: the joined row r of the two loaded blocks against column c of the fused
    weights, plus entry c of the fused bias row. -/
theorem pay1_at (v0 v2 : Vec Ideal S4096x128 .f32) (v5 : Vec Ideal S256x512 .bf16) (v8 : Vec Ideal S1x512 .f32)
    (r : Fin 4096) (c : Fin 512) :
    k0_pay1 (F := Ideal) v0 v2 v5 v8 (ix2 r c)
      = (∑ k : Fin 256, (if h : k.val < 128 then v0 (ix2 r ⟨k.val, h⟩) else v2 (ix2 r ⟨k.val - 128, by omega⟩)) * v5 (ix2 k c))
          + v8 (ix2 (0 : Fin 1) c) := by
  unfold k0_pay1
  refine (addf_apply _ _ _).trans ?_
  refine congrArg₂ (· + ·) ?_ ?_
  · refine (Ideal.matmul_constant_zero_apply dot_S4096x256_S256x512_S4096x512_1_0_0_1_n_n none _ _ (ix2 r c)).trans ?_
    rw [← Equiv.sum_comp (contrEquiv1 dot_S4096x256_S256x512_S4096x512_1_0_0_1_n_n 256 rfl rfl).symm]
    refine Finset.sum_congr rfl fun k _ => ?_
    have hk := contrEquiv1_symm_val dot_S4096x256_S256x512_S4096x512_1_0_0_1_n_n 256 rfl rfl k
    have el : dot_S4096x256_S256x512_S4096x512_1_0_0_1_n_n.lhsIdx (ix2 r c)
        ((contrEquiv1 dot_S4096x256_S256x512_S4096x512_1_0_0_1_n_n 256 rfl rfl).symm k) = ix2 r k :=
      funext fun a => Fin.ext (by
        match a with
        | ⟨0, _⟩ => exact lhs_0 _ _
        | ⟨1, _⟩ => exact (lhs_1 _ _).trans hk)
    have er : dot_S4096x256_S256x512_S4096x512_1_0_0_1_n_n.rhsIdx (ix2 r c)
        ((contrEquiv1 dot_S4096x256_S256x512_S4096x512_1_0_0_1_n_n 256 rfl rfl).symm k) = ix2 k c :=
      funext fun a => Fin.ext (by
        match a with
        | ⟨0, _⟩ => exact (rhs_0 _ _).trans hk
        | ⟨1, _⟩ => exact rhs_1 _ _)
    rw [el, er]
    refine congrArg₂ (· * ·) ?_ (congrFun (shapeCast_self v5 _) _)
    by_cases h : k.val < 128
    · rw [dif_pos h]
      exact concatenate_pair_apply_left (t := S4096x256) (s₁ := S4096x128) (s₂ := S4096x128) 1 _ _ _ (ix2 r k) rfl
        (ix2 r (⟨k.val, h⟩ : Fin 128)) (fun b => by
        match b with
        | ⟨0, _⟩ => rfl
        | ⟨1, _⟩ => rfl)
    · rw [dif_neg h]
      exact concatenate_pair_apply_right (t := S4096x256) (s₁ := S4096x128) (s₂ := S4096x128) 1 _ _ _ (ix2 r k) rfl rfl
        (ix2 r (⟨k.val - 128, by omega⟩ : Fin 128))
        (fun b hb => by
          match b with
          | ⟨0, _⟩ => rfl
          | ⟨1, _⟩ => exact absurd rfl hb)
        (by show k.val - 128 + 128 = k.val; omega)
  · exact (broadcastTo_1b_ab_apply _ _ r c).trans (congrFun (shapeCast_self v8 _) _)

/-- Under the block hypotheses, entry (r, c) of the wide pre-activation is the pre-activation at row R, column j of the
    gate whose weights and bias sit at column c of the fused ones. -/
theorem gate_at (v0 v2 : Vec Ideal S4096x128 .f32) (v5 : Vec Ideal S256x512 .bf16) (v8 : Vec Ideal S1x512 .f32)
    (X PO : Rows) (W : Weights) (b : Bias) (R : Fin 131072) (r : Fin 4096) (j : Fin 128) (c : Fin 512)
    (hx : ∀ k : Fin 128, v0 (ix2 r k) = X (ix2 R k)) (hpo : ∀ k : Fin 128, v2 (ix2 r k) = PO (ix2 R k))
    (hw : ∀ k : Fin 256, v5 (ix2 k c) = W (ix2 k j)) (hb : v8 (ix2 (0 : Fin 1) c) = b (ix1 j)) :
    k0_pay1 (F := Ideal) v0 v2 v5 v8 (ix2 r c) = gatePre X PO W b R j := by
  refine (pay1_at v0 v2 v5 v8 r c).trans ?_
  unfold gatePre
  refine congrArg₂ (· + ·) (Finset.sum_congr rfl fun k _ => ?_) hb
  refine congrArg₂ (· * ·) ?_ (hw k)
  unfold joined
  by_cases h : k.val < 128
  · rw [dif_pos h, dif_pos h]; exact hx _
  · rw [dif_neg h, dif_neg h]; exact hpo _

/-! ## The two stored values -/

/-- The stored new cell state at (r, j) is the specification's new state at (R, j). -/
theorem state_at (v0 v2 v21 : Vec Ideal S4096x128 .f32) (v5 : Vec Ideal S256x512 .bf16) (v8 : Vec Ideal S1x512 .f32)
    (X PO PC : Rows) (Wf Wis Wit : Weights) (bf bis bit : Bias) (R : Fin 131072) (r : Fin 4096) (j : Fin 128)
    (hx : ∀ k : Fin 128, v0 (ix2 r k) = X (ix2 R k)) (hpo : ∀ k : Fin 128, v2 (ix2 r k) = PO (ix2 R k))
    (hpc : v21 (ix2 r j) = PC (ix2 R j))
    (hw0 : ∀ k : Fin 256, v5 (ix2 k ⟨j.val, by omega⟩) = Wf (ix2 k j))
    (hw1 : ∀ k : Fin 256, v5 (ix2 k ⟨128 + j.val, by omega⟩) = Wis (ix2 k j))
    (hw2 : ∀ k : Fin 256, v5 (ix2 k ⟨256 + j.val, by omega⟩) = Wit (ix2 k j))
    (hb0 : v8 (ix2 (0 : Fin 1) ⟨j.val, by omega⟩) = bf (ix1 j))
    (hb1 : v8 (ix2 (0 : Fin 1) ⟨128 + j.val, by omega⟩) = bis (ix1 j))
    (hb2 : v8 (ix2 (0 : Fin 1) ⟨256 + j.val, by omega⟩) = bit (ix1 j)) :
    k0_pay2 (F := Ideal) v0 v2 v5 v8 v21 (ix2 r j) = newState X PO PC Wf bf Wis bis Wit bit R j := by
  have e0 := (slice2_axis1_apply 0 (k0_pay1 (F := Ideal) v0 v2 v5 v8) Facts₀.slices_S4096x512_o0_0_S4096x128 r j
      ⟨j.val, by omega⟩ (Nat.zero_add _).symm).trans (gate_at v0 v2 v5 v8 X PO Wf bf R r j _ hx hpo hw0 hb0)
  have e1 := (slice2_axis1_apply 128 (k0_pay1 (F := Ideal) v0 v2 v5 v8) Facts₀.slices_S4096x512_o0_128_S4096x128 r j
      ⟨128 + j.val, by omega⟩ rfl).trans (gate_at v0 v2 v5 v8 X PO Wis bis R r j _ hx hpo hw1 hb1)
  have e2 := (slice2_axis1_apply 256 (k0_pay1 (F := Ideal) v0 v2 v5 v8) Facts₀.slices_S4096x512_o0_256_S4096x128 r j
      ⟨256 + j.val, by omega⟩ rfl).trans (gate_at v0 v2 v5 v8 X PO Wit bit R r j _ hx hpo hw2 hb2)
  unfold k0_pay2 newState
  refine (addf_apply _ _ _).trans ?_
  refine congrArg₂ (· + ·) ?_ ?_
  · refine (mulf_apply _ _ _).trans ?_
    exact congrArg₂ (· * ·) (congrArg Ideal.logistic e0) hpc
  · refine (mulf_apply _ _ _).trans ?_
    exact congrArg₂ (· * ·) (congrArg Ideal.logistic e1) (congrArg Ideal.tanh e2)

/-- The stored new output at (r, j) is the specification's new output at (R, j). -/
theorem output_at (v0 v2 v21 : Vec Ideal S4096x128 .f32) (v5 : Vec Ideal S256x512 .bf16) (v8 : Vec Ideal S1x512 .f32)
    (X PO PC : Rows) (Wf Wis Wit : Weights) (bf bis bit : Bias) (R : Fin 131072) (r : Fin 4096) (j : Fin 128)
    (hx : ∀ k : Fin 128, v0 (ix2 r k) = X (ix2 R k)) (hpo : ∀ k : Fin 128, v2 (ix2 r k) = PO (ix2 R k))
    (hpc : v21 (ix2 r j) = PC (ix2 R j))
    (hw0 : ∀ k : Fin 256, v5 (ix2 k ⟨j.val, by omega⟩) = Wf (ix2 k j))
    (hw1 : ∀ k : Fin 256, v5 (ix2 k ⟨128 + j.val, by omega⟩) = Wis (ix2 k j))
    (hw2 : ∀ k : Fin 256, v5 (ix2 k ⟨256 + j.val, by omega⟩) = Wit (ix2 k j))
    (hb0 : v8 (ix2 (0 : Fin 1) ⟨j.val, by omega⟩) = bf (ix1 j))
    (hb1 : v8 (ix2 (0 : Fin 1) ⟨128 + j.val, by omega⟩) = bis (ix1 j))
    (hb2 : v8 (ix2 (0 : Fin 1) ⟨256 + j.val, by omega⟩) = bit (ix1 j))
    (Wo : Weights) (bo : Bias)
    (hw3 : ∀ k : Fin 256, v5 (ix2 k ⟨384 + j.val, by omega⟩) = Wo (ix2 k j))
    (hb3 : v8 (ix2 (0 : Fin 1) ⟨384 + j.val, by omega⟩) = bo (ix1 j)) :
    k0_pay3 (F := Ideal) v0 v2 v5 v8 v21 (ix2 r j) = newOutput X PO PC Wf bf Wis bis Wit bit Wo bo R j := by
  have e3 := (slice2_axis1_apply 384 (k0_pay1 (F := Ideal) v0 v2 v5 v8) Facts₀.slices_S4096x512_o0_384_S4096x128 r j
      ⟨384 + j.val, by omega⟩ rfl).trans (gate_at v0 v2 v5 v8 X PO Wo bo R r j _ hx hpo hw3 hb3)
  have es := state_at v0 v2 v21 v5 v8 X PO PC Wf Wis Wit bf bis bit R r j hx hpo hpc hw0 hw1 hw2 hb0 hb1 hb2
  unfold k0_pay3 newOutput
  refine (mulf_apply _ _ _).trans ?_
  exact congrArg₂ (· * ·) (congrArg Ideal.tanh es) (congrArg Ideal.logistic e3)

end Cert.BodyIsCell

end
-- ==== Proof.IdealArrays.lean ====
/-
  The two output arrays after the whole run, on the extended reals: the new cell state and the new output of the
  recurrent cell, entry by entry, as functions of the eleven argument arrays.

  The grid has 32 points; at point t each row array's block is rows 4096 t .. 4096 t + 4095 and the fused weights and
  bias are whole. What point t writes back to an output array is therefore block t of the specification's array: row r of
  the block is row 4096 t + r of the whole. Row R of the whole array lies in the block of point R / 4096, so the 32
  blocks cover the array and it ends holding the specification's array everywhere.
-/
import proofs.«153721_j24756191494329_2_alg».proof.Proof.IdealRun
import proofs.«153721_j24756191494329_2_alg».proof.Proof.IdealFused
import proofs.«153721_j24756191494329_2_alg».proof.Proof.BodyIsCell
import proofs.«153721_j24756191494329_2_alg».proof.Proof.CellSpec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Region Cert.KernelIdeal.Body Cert.KernelIdeal.Whole
open Idealize.ShloMosaic Idealize.ShloMosaic.TcCoe Idealize.SL.Sem Idealize.ShloMosaic.ValueIdx
open Idealize.ShloMosaic.Pipeline (Dat)
open Cert.CellSpec

variable (m : (ℓ : Loc nD τ sig) → Buf (Elt Ideal) ℓ)

theorem offsets_zero : (![0, 0] : Fin 2 → Nat) = fun _ => 0 := funext fun a => by fin_cases a <;> rfl

/-- The printed index maps, decided over the grid: a row array's block index at point t is (t, 0); the fused weights'
    and bias's is (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-! ## The five blocks read at point t, as entries of the arrays the region finds -/

/-- Row r of the input's block at point t is row 4096 t + r of the input array. -/
theorem rows0_at (c : Dev nD) (t : Fin cfg0.N) (r : Fin 4096) (k : Fin 128) (R : Fin 131072) (hR : R.val = t.val * 4096 + r.val) :
    (block m c 0 t : Vec Ideal S4096x128 .f32) (ix2 r k) = (m ((c : Thread nD τ).loc main_arg0) : S131072x128.Idx → EReal) (ix2 R k) := by
  show entry m c main_arg0 (((cfg0.win 0).blk t).view.emb (ix2 r k)) = _
  refine (congrFun (entry_arg0 m c) _).trans ?_
  refine congrArg (m ((c : Thread nD τ).loc main_arg0)) ?_
  funext a
  apply Fin.ext
  obtain ⟨⟨e00, e01⟩, ⟨e10, e11⟩, ⟨e20, e21⟩, -⟩ := index_facts t
  match a with
  | ⟨0, _⟩ => show win0_0.index t (0 : Fin 2) * 4096 + 1 * r.val = R.val; omega
  | ⟨1, _⟩ => show win0_0.index t (1 : Fin 2) * 128 + 1 * k.val = k.val; omega

/-- Row r of the previous output's block at point t is row 4096 t + r of the previous output array. -/
theorem rows1_at (c : Dev nD) (t : Fin cfg0.N) (r : Fin 4096) (k : Fin 128) (R : Fin 131072) (hR : R.val = t.val * 4096 + r.val) :
    (block m c 1 t : Vec Ideal S4096x128 .f32) (ix2 r k) = (m ((c : Thread nD τ).loc main_arg1) : S131072x128.Idx → EReal) (ix2 R k) := by
  show entry m c main_arg1 (((cfg0.win 1).blk t).view.emb (ix2 r k)) = _
  refine (congrFun (entry_arg1 m c) _).trans ?_
  refine congrArg (m ((c : Thread nD τ).loc main_arg1)) ?_
  funext a
  apply Fin.ext
  obtain ⟨⟨e00, e01⟩, ⟨e10, e11⟩, ⟨e20, e21⟩, -⟩ := index_facts t
  match a with
  | ⟨0, _⟩ => show win0_1.index t (0 : Fin 2) * 4096 + 1 * r.val = R.val; omega
  | ⟨1, _⟩ => show win0_1.index t (1 : Fin 2) * 128 + 1 * k.val = k.val; omega

/-- Row r of the previous cell state's block at point t is row 4096 t + r of the previous cell state array. -/
theorem rows2_at (c : Dev nD) (t : Fin cfg0.N) (r : Fin 4096) (k : Fin 128) (R : Fin 131072) (hR : R.val = t.val * 4096 + r.val) :
    (block m c 2 t : Vec Ideal S4096x128 .f32) (ix2 r k) = (m ((c : Thread nD τ).loc main_arg2) : S131072x128.Idx → EReal) (ix2 R k) := by
  show entry m c main_arg2 (((cfg0.win 2).blk t).view.emb (ix2 r k)) = _
  refine (congrFun (entry_arg2 m c) _).trans ?_
  refine congrArg (m ((c : Thread nD τ).loc main_arg2)) ?_
  funext a
  apply Fin.ext
  obtain ⟨⟨e00, e01⟩, ⟨e10, e11⟩, ⟨e20, e21⟩, -⟩ := index_facts t
  match a with
  | ⟨0, _⟩ => show win0_2.index t (0 : Fin 2) * 4096 + 1 * r.val = R.val; omega
  | ⟨1, _⟩ => show win0_2.index t (1 : Fin 2) * 128 + 1 * k.val = k.val; omega

/-- The fused weights' block at any point is the whole fused weight matrix. -/
theorem weights_at (c : Dev nD) (t : Fin cfg0.N) (k : Fin 256) (q : Fin 512) :
    (block m c 3 t : Vec Ideal S256x512 .bf16) (ix2 k q) = entry m c main_v1 (ix2 k q) := by
  show entry m c main_v1 (((cfg0.win 3).blk t).view.emb (ix2 k q)) = _
  refine congrArg (entry m c main_v1) ?_
  funext a
  apply Fin.ext
  obtain ⟨-, -, -, ⟨e0, e1⟩, -⟩ := index_facts t
  match a with
  | ⟨0, _⟩ => show win0_3.index t (0 : Fin 2) * 256 + 1 * k.val = k.val; omega
  | ⟨1, _⟩ => show win0_3.index t (1 : Fin 2) * 512 + 1 * q.val = q.val; omega

/-- The fused bias's block at any point is the whole fused bias row. -/
theorem bias_at (c : Dev nD) (t : Fin cfg0.N) (q : Fin 512) :
    (block m c 4 t : Vec Ideal S1x512 .f32) (ix2 (0 : Fin 1) q) = entry m c main_v3 (ix2 (0 : Fin 1) q) := by
  show entry m c main_v3 (((cfg0.win 4).blk t).view.emb (ix2 (0 : Fin 1) q)) = _
  refine congrArg (entry m c main_v3) ?_
  funext a
  apply Fin.ext
  obtain ⟨-, -, -, -, ⟨e0, e1⟩, -⟩ := index_facts t
  match a with
  | ⟨0, _⟩ => show win0_4.index t (0 : Fin 2) * 1 + 1 * 0 = 0; omega
  | ⟨1, _⟩ => show win0_4.index t (1 : Fin 2) * 512 + 1 * q.val = q.val; omega

/-! ## What each point writes back -/

/-- Point t writes back block t of the specification's new cell state array. -/
theorem flushed_state (c : Dev nD) (t : Fin cfg0.N) :
    (dats m 0 c).flushed 5 t = ((cfg0.win 5).blk t).view.read (Elt Ideal)
      (stateArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) := by
  show (cfg0.win 5).cut (grid0.coords t) ((dats m 0 c).after 5 t) = _
  rw [after5]
  unfold stateBuf
  rw [View.canon_unit_zero offsets_zero]
  simp only [View.ld_unit_zero (S := S4096x128) offsets_zero, View.ld_unit_zero (S := S256x512) offsets_zero,
    View.ld_unit_zero (S := S1x512) offsets_zero]
  funext y
  obtain ⟨r, j, rfl⟩ : ∃ (r : Fin 4096) (j : Fin 128), y = ix2 r j := ⟨y 0, y 1, eq_ix2 y⟩
  have hN : cfg0.N = 32 := N_0
  have ht : t.val < 32 := by have := t.isLt; omega
  have hR : t.val * 4096 + r.val < 131072 := by omega
  obtain ⟨-, -, -, -, -, ⟨e50, e51⟩, ⟨e60, e61⟩⟩ := index_facts t
  have hi0 : ((((cfg0.win 5).blk t).view.emb (ix2 r j)) 0 : Fin 131072) = (⟨t.val * 4096 + r.val, hR⟩ : Fin 131072) :=
    Fin.ext (by show win0_5.index t (0 : Fin 2) * 4096 + 1 * r.val = t.val * 4096 + r.val; omega)
  have hi1 : ((((cfg0.win 5).blk t).view.emb (ix2 r j)) 1 : Fin 128) = j :=
    Fin.ext (by show win0_5.index t (1 : Fin 2) * 128 + 1 * j.val = j.val; omega)
  show k0_pay2 (F := Ideal) (block m c 0 t) (block m c 1 t) (block m c 3 t) (block m c 4 t) (block m c 2 t) (ix2 r j)
    = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        ((((cfg0.win 5).blk t).view.emb (ix2 r j)) 0) ((((cfg0.win 5).blk t).view.emb (ix2 r j)) 1)
  refine (Cert.BodyIsCell.state_at (block m c 0 t) (block m c 1 t) (block m c 2 t) (block m c 3 t) (block m c 4 t)
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8))
    (⟨t.val * 4096 + r.val, hR⟩ : Fin 131072) r j
    (fun k => rows0_at m c t r k _ rfl) (fun k => rows1_at m c t r k _ rfl) (rows2_at m c t r j _ rfl)
    (fun k => (weights_at m c t k _).trans (Cert.KernelIdeal.Fused.weights_forget m c k j))
    (fun k => (weights_at m c t k _).trans (Cert.KernelIdeal.Fused.weights_inputSig m c k j))
    (fun k => (weights_at m c t k _).trans (Cert.KernelIdeal.Fused.weights_inputTanh m c k j))
    ((bias_at m c t _).trans (Cert.KernelIdeal.Fused.bias_forget m c j))
    ((bias_at m c t _).trans (Cert.KernelIdeal.Fused.bias_inputSig m c j))
    ((bias_at m c t _).trans (Cert.KernelIdeal.Fused.bias_inputTanh m c j))).trans ?_
  exact (congrArg₂ (newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) hi0 hi1).symm

/-- Point t writes back block t of the specification's new output array. -/
theorem flushed_output (c : Dev nD) (t : Fin cfg0.N) :
    (dats m 0 c).flushed 6 t = ((cfg0.win 6).blk t).view.read (Elt Ideal)
      (outputArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))) := by
  show (cfg0.win 6).cut (grid0.coords t) ((dats m 0 c).after 6 t) = _
  rw [after6]
  unfold outputBuf
  rw [View.canon_unit_zero offsets_zero]
  simp only [View.ld_unit_zero (S := S4096x128) offsets_zero, View.ld_unit_zero (S := S256x512) offsets_zero,
    View.ld_unit_zero (S := S1x512) offsets_zero]
  funext y
  obtain ⟨r, j, rfl⟩ : ∃ (r : Fin 4096) (j : Fin 128), y = ix2 r j := ⟨y 0, y 1, eq_ix2 y⟩
  have hN : cfg0.N = 32 := N_0
  have ht : t.val < 32 := by have := t.isLt; omega
  have hR : t.val * 4096 + r.val < 131072 := by omega
  obtain ⟨-, -, -, -, -, ⟨e50, e51⟩, ⟨e60, e61⟩⟩ := index_facts t
  have hi0 : ((((cfg0.win 6).blk t).view.emb (ix2 r j)) 0 : Fin 131072) = (⟨t.val * 4096 + r.val, hR⟩ : Fin 131072) :=
    Fin.ext (by show win0_6.index t (0 : Fin 2) * 4096 + 1 * r.val = t.val * 4096 + r.val; omega)
  have hi1 : ((((cfg0.win 6).blk t).view.emb (ix2 r j)) 1 : Fin 128) = j :=
    Fin.ext (by show win0_6.index t (1 : Fin 2) * 128 + 1 * j.val = j.val; omega)
  show k0_pay3 (F := Ideal) (block m c 0 t) (block m c 1 t) (block m c 3 t) (block m c 4 t) (block m c 2 t) (ix2 r j)
    = newOutput (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
        ((((cfg0.win 6).blk t).view.emb (ix2 r j)) 0) ((((cfg0.win 6).blk t).view.emb (ix2 r j)) 1)
  refine (Cert.BodyIsCell.output_at (block m c 0 t) (block m c 1 t) (block m c 2 t) (block m c 3 t) (block m c 4 t)
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8))
    (⟨t.val * 4096 + r.val, hR⟩ : Fin 131072) r j
    (fun k => rows0_at m c t r k _ rfl) (fun k => rows1_at m c t r k _ rfl) (rows2_at m c t r j _ rfl)
    (fun k => (weights_at m c t k _).trans (Cert.KernelIdeal.Fused.weights_forget m c k j))
    (fun k => (weights_at m c t k _).trans (Cert.KernelIdeal.Fused.weights_inputSig m c k j))
    (fun k => (weights_at m c t k _).trans (Cert.KernelIdeal.Fused.weights_inputTanh m c k j))
    ((bias_at m c t _).trans (Cert.KernelIdeal.Fused.bias_forget m c j))
    ((bias_at m c t _).trans (Cert.KernelIdeal.Fused.bias_inputSig m c j))
    ((bias_at m c t _).trans (Cert.KernelIdeal.Fused.bias_inputTanh m c j)) (m ((c : Thread nD τ).loc main_arg9)) (m ((c : Thread nD τ).loc main_arg10))
    (fun k => (weights_at m c t k _).trans (Cert.KernelIdeal.Fused.weights_output m c k j))
    ((bias_at m c t _).trans (Cert.KernelIdeal.Fused.bias_output m c j))).trans ?_
  exact (congrArg₂ (newOutput (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) hi0 hi1).symm

/-! ## The blocks cover the arrays, so the arrays end as the specification's -/

/-- An index of the new cell state array is in point t's block iff each coordinate is in the block's range on its axis. -/
theorem mem_block_state (t : Fin cfg0.N) (i : S131072x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v4_0).slice (win0_5.rect t)).set ↔ _
  rw [View.set_slice_whole, Rect.mem_set_unit]
  exact Iff.rfl

/-- Every index of the new cell state array is in the block of the point its row falls in: row R in that of point R / 4096. -/
theorem cover_state (i : S131072x128.Idx) :
    ∃ t : Fin cfg0.N, (cfg0.win 5).flush t = true ∧ i ∈ ((cfg0.win 5).blk t).view.set := by
  have hN : cfg0.N = 32 := N_0
  have hi0 : (i 0).val < 131072 := (i 0).isLt
  have hi1 : (i 1).val < 128 := (i 1).isLt
  refine ⟨⟨(i 0).val / 4096, by omega⟩, flush0_5 _, ?_⟩
  rw [mem_block_state]
  obtain ⟨-, -, -, -, -, ⟨e50, e51⟩, ⟨e60, e61⟩⟩ := index_facts ⟨(i 0).val / 4096, by omega⟩
  intro a
  match a with
  | ⟨0, _⟩ =>
    show win0_5.index ⟨(i 0).val / 4096, _⟩ (0 : Fin 2) * 4096 ≤ (i 0).val ∧ (i 0).val < win0_5.index ⟨(i 0).val / 4096, _⟩ (0 : Fin 2) * 4096 + 4096
    rw [e50]
    show (i 0).val / 4096 * 4096 ≤ (i 0).val ∧ (i 0).val < (i 0).val / 4096 * 4096 + 4096
    omega
  | ⟨1, _⟩ =>
    show win0_5.index ⟨(i 0).val / 4096, _⟩ (1 : Fin 2) * 128 ≤ (i 1).val ∧ (i 1).val < win0_5.index ⟨(i 0).val / 4096, _⟩ (1 : Fin 2) * 128 + 128
    rw [e51]
    omega

/-- The new cell state array after the whole run is the specification's, entry by entry. -/
theorem state_final (c : Dev nD) :
    (dats m 0 c).arrAt 5 cfg0.N = stateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 5 _ (fun t _ => flushed_state m c t) cover_state

/-- An index of the new output array is in point t's block iff each coordinate is in the block's range on its axis. -/
theorem mem_block_output (t : Fin cfg0.N) (i : S131072x128.Idx) :
    i ∈ ((cfg0.win 6).blk t).view.set ↔ ∀ a : Fin 2, win0_6.index t a * S4096x128.size a ≤ (i a).val ∧ (i a).val < win0_6.index t a * S4096x128.size a + S4096x128.size a := by
  show i ∈ ((View.whole main_v4_1).slice (win0_6.rect t)).set ↔ _
  rw [View.set_slice_whole, Rect.mem_set_unit]
  exact Iff.rfl

/-- Every index of the new output array is in the block of the point its row falls in: row R in that of point R / 4096. -/
theorem cover_output (i : S131072x128.Idx) :
    ∃ t : Fin cfg0.N, (cfg0.win 6).flush t = true ∧ i ∈ ((cfg0.win 6).blk t).view.set := by
  have hN : cfg0.N = 32 := N_0
  have hi0 : (i 0).val < 131072 := (i 0).isLt
  have hi1 : (i 1).val < 128 := (i 1).isLt
  refine ⟨⟨(i 0).val / 4096, by omega⟩, flush0_6 _, ?_⟩
  rw [mem_block_output]
  obtain ⟨-, -, -, -, -, ⟨e50, e51⟩, ⟨e60, e61⟩⟩ := index_facts ⟨(i 0).val / 4096, by omega⟩
  intro a
  match a with
  | ⟨0, _⟩ =>
    show win0_6.index ⟨(i 0).val / 4096, _⟩ (0 : Fin 2) * 4096 ≤ (i 0).val ∧ (i 0).val < win0_6.index ⟨(i 0).val / 4096, _⟩ (0 : Fin 2) * 4096 + 4096
    rw [e60]
    show (i 0).val / 4096 * 4096 ≤ (i 0).val ∧ (i 0).val < (i 0).val / 4096 * 4096 + 4096
    omega
  | ⟨1, _⟩ =>
    show win0_6.index ⟨(i 0).val / 4096, _⟩ (1 : Fin 2) * 128 ≤ (i 1).val ∧ (i 1).val < win0_6.index ⟨(i 0).val / 4096, _⟩ (1 : Fin 2) * 128 + 128
    rw [e61]
    omega

/-- The new output array after the whole run is the specification's, entry by entry. -/
theorem output_final (c : Dev nD) :
    (dats m 0 c).arrAt 6 cfg0.N = outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 _ (fun t _ => flushed_output m c t) cover_output

end Cert.KernelIdeal.Arrays

end
-- ==== Proof.RefIsCell.lean ====
/-
  The reference program's two results, entry by entry, are the recurrent cell's new state and new output.

  The reference joins each row of the input with the same row of the previous output into a row of 256 entries, and for
  each of the four gates takes that row against a column of the gate's weights and adds the gate's bias: this is the
  cell's pre-activation. It spells each sigmoid as  1 / (1 + e^(-s))  with the literal one, which is the logistic
  function at every extended real. The new state and the new output are then the same products and sums the
  specification names, so the two agree term by term; no entry needs to be finite.
-/
import proofs.«153721_j24756191494329_2_alg».proof.Proof.Gen.ReferenceIdeal.Read
import proofs.«153721_j24756191494329_2_alg».proof.Proof.CellSpec
import Idealize.ShloMosaic.Lib.Pipeline.Value
import Idealize.ShloMosaic.Lib.ValueIdx
import Idealize.ShloMosaic.Lib.IdealHost
import Idealize.ShloMosaic.Lib.ValueLayout
import Idealize.ShloMosaic.PureOps.Ideal

noncomputable section

open scoped BigOperators

namespace Cert.RefIsCell

open Cert.ReferenceIdeal Cert.ReferenceIdeal.Gen Cert.ReferenceIdeal.Read Cert.CellSpec
open Idealize.ShloMosaic Idealize.ShloMosaic.ValueIdx

/-- The joined array at row `r`, position `k`: the input's entry below 128, the previous output's entry `k - 128`
    from 128 on. -/
theorem joined_apply (x0 x1 : (⟨S131072x128, .f32⟩ : BufTy).Contents (Elt Ideal)) (r : Fin 131072) (k : Fin 256) :
    val_main_v0 (F := Ideal) x0 x1 (ix2 r k) = joined x0 x1 r k := by
  unfold val_main_v0 joined
  by_cases h : k.val < 128
  · rw [dif_pos h]
    exact concatenate_pair_apply_left (t := S131072x256) (s₁ := S131072x128) (s₂ := S131072x128) 1 x0 x1
      concatenates_S131072x128_S131072x128_S131072x256_d1 (ix2 r k) rfl (ix2 r ⟨k.val, h⟩) (fun b => by
        match b with
        | ⟨0, _⟩ => rfl
        | ⟨1, _⟩ => rfl)
  · rw [dif_neg h]
    exact concatenate_pair_apply_right (t := S131072x256) (s₁ := S131072x128) (s₂ := S131072x128) 1 x0 x1
      concatenates_S131072x128_S131072x128_S131072x256_d1 (ix2 r k) rfl rfl (ix2 r ⟨k.val - 128, by omega⟩)
      (fun b hb => by
        match b with
        | ⟨0, _⟩ => rfl
        | ⟨1, _⟩ => exact absurd rfl hb)
      (by show k.val - 128 + 128 = k.val; omega)

/-- A gate's pre-activation as the reference forms it at an index: the joined row against the weights' column, plus
    the bias read through its two broadcasts. The four gates' index functions are the same functions under four names,
    so this one statement serves all four. -/
theorem pre_apply (x0 x1 : (⟨S131072x128, .f32⟩ : BufTy).Contents (Elt Ideal)) (W : (⟨S256x128, .f32⟩ : BufTy).Contents (Elt Ideal)) (b : (⟨S128, .f32⟩ : BufTy).Contents (Elt Ideal)) (r : Fin 131072) (j : Fin 128) :
    (∑ k : Fin 256, (val_main_v0 (F := Ideal) x0 x1) (lidx_main_v1 (ix2 r j) k) * W (ridx_main_v1 (ix2 r j) k))
        + b (idx_main_v2 (idx_main_v3 (ix2 r j)))
      = gatePre x0 x1 W b r j := by
  unfold gatePre
  have el : ∀ k : Fin 256, lidx_main_v1 (ix2 r j) k = ix2 r k := fun k => funext fun a => Fin.ext (by
    match a with
    | ⟨0, _⟩ => rfl
    | ⟨1, _⟩ => rfl)
  have er : ∀ k : Fin 256, ridx_main_v1 (ix2 r j) k = ix2 k j := fun k => funext fun a => Fin.ext (by
    match a with
    | ⟨0, _⟩ => rfl
    | ⟨1, _⟩ => rfl)
  have eb : idx_main_v2 (idx_main_v3 (ix2 r j)) = ix1 j := funext fun a => Fin.ext (by
    match a with
    | ⟨0, _⟩ => rfl)
  rw [eb]
  congr 1
  refine Finset.sum_congr rfl fun k _ => ?_
  rw [el k, er k, joined_apply]

/-- The forget gate's pre-activation. -/
theorem gate_forget (x0 x1 : (⟨S131072x128, .f32⟩ : BufTy).Contents (Elt Ideal)) (x3 : (⟨S256x128, .f32⟩ : BufTy).Contents (Elt Ideal)) (x4 : (⟨S128, .f32⟩ : BufTy).Contents (Elt Ideal)) (r : Fin 131072) (j : Fin 128) :
    val_main_v4 (F := Ideal) x0 x1 x3 x4 (ix2 r j) = gatePre x0 x1 x3 x4 r j := by
  rw [val_main_v4_apply, val_main_v1_apply, val_main_v3_apply, val_main_v2_apply]
  exact pre_apply x0 x1 x3 x4 r j

/-- The input gate's sigmoid branch's pre-activation. -/
theorem gate_inputSig (x0 x1 : (⟨S131072x128, .f32⟩ : BufTy).Contents (Elt Ideal)) (x5 : (⟨S256x128, .f32⟩ : BufTy).Contents (Elt Ideal)) (x6 : (⟨S128, .f32⟩ : BufTy).Contents (Elt Ideal)) (r : Fin 131072) (j : Fin 128) :
    val_main_v14 (F := Ideal) x0 x1 x5 x6 (ix2 r j) = gatePre x0 x1 x5 x6 r j := by
  rw [val_main_v14_apply, val_main_v11_apply, val_main_v13_apply, val_main_v12_apply]
  exact pre_apply x0 x1 x5 x6 r j

/-- The input gate's tanh branch's pre-activation. -/
theorem gate_inputTanh (x0 x1 : (⟨S131072x128, .f32⟩ : BufTy).Contents (Elt Ideal)) (x7 : (⟨S256x128, .f32⟩ : BufTy).Contents (Elt Ideal)) (x8 : (⟨S128, .f32⟩ : BufTy).Contents (Elt Ideal)) (r : Fin 131072) (j : Fin 128) :
    val_main_v24 (F := Ideal) x0 x1 x7 x8 (ix2 r j) = gatePre x0 x1 x7 x8 r j := by
  rw [val_main_v24_apply, val_main_v21_apply, val_main_v23_apply, val_main_v22_apply]
  exact pre_apply x0 x1 x7 x8 r j

/-- The output gate's pre-activation. -/
theorem gate_output (x0 x1 : (⟨S131072x128, .f32⟩ : BufTy).Contents (Elt Ideal)) (x9 : (⟨S256x128, .f32⟩ : BufTy).Contents (Elt Ideal)) (x10 : (⟨S128, .f32⟩ : BufTy).Contents (Elt Ideal)) (r : Fin 131072) (j : Fin 128) :
    val_main_v30 (F := Ideal) x0 x1 x9 x10 (ix2 r j) = gatePre x0 x1 x9 x10 r j := by
  rw [val_main_v30_apply, val_main_v27_apply, val_main_v29_apply, val_main_v28_apply]
  exact pre_apply x0 x1 x9 x10 r j

/-- The reference's spelling of the sigmoid, one over one plus the exponential of the negation, with the literal one:
    the literal is the extended real one, and the rest is the logistic function's own definition. -/
theorem sigmoid_spelling (s : EReal) :
    Ideal.div (Ideal.ofBits .f32 0x3F800000#32) (Ideal.ofBits .f32 0x3F800000#32 + Ideal.exp (-s)) = Ideal.logistic s := by
  rw [Ideal.ofBits_one_f32]
  rfl

/-- The reference's new cell state is the specification's. -/
theorem state_eq (x0 x1 x2 : (⟨S131072x128, .f32⟩ : BufTy).Contents (Elt Ideal)) (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) :
    Cert.ReferenceIdeal.Read.val_main_v38 (F := Ideal) x0 x1 x2 x3 x4 x5 x6 x7 x8
      = Cert.CellSpec.stateArr x0 x1 x2 x3 x4 x5 x6 x7 x8 := by
  funext i
  obtain ⟨r, j, rfl⟩ : ∃ (r : Fin 131072) (j : Fin 128), i = ix2 r j := ⟨i 0, i 1, eq_ix2 i⟩
  rw [val_main_v38_apply, val_main_v37_apply, val_main_v26_apply,
    val_main_v10_apply, val_main_v9_apply, val_main_cst_0_apply, val_main_v8_apply, val_main_v7_apply, val_main_cst_apply,
    val_main_v6_apply, val_main_v5_apply, gate_forget,
    val_main_v20_apply, val_main_v19_apply, val_main_cst_2_apply, val_main_v18_apply, val_main_v17_apply, val_main_cst_1_apply,
    val_main_v16_apply, val_main_v15_apply, gate_inputSig,
    val_main_v25_apply, gate_inputTanh]
  simp only [Ideal.addf_def, Ideal.mulf_def, Ideal.hostDivf_def, Ideal.hostUnary_exp_def, Ideal.hostUnary_tanh_def,
    Ideal.hostNegf_def, Ideal.negf_def, Ideal.ofBits_def, sigmoid_spelling]
  rfl

/-- The reference's new output is the specification's: the hyperbolic tangent of the new state times the output
    gate's sigmoid. -/
theorem output_eq (x0 x1 x2 : (⟨S131072x128, .f32⟩ : BufTy).Contents (Elt Ideal)) (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S256x128, .f32⟩ : BufTy).Contents (Elt Ideal)) (x10 : (⟨S128, .f32⟩ : BufTy).Contents (Elt Ideal)) :
    Cert.ReferenceIdeal.Read.val_main_v40 (F := Ideal) x0 x1 x2 x3 x4 x5 x6 x7 x8 x9 x10
      = Cert.CellSpec.outputArr x0 x1 x2 x3 x4 x5 x6 x7 x8 x9 x10 := by
  funext i
  obtain ⟨r, j, rfl⟩ : ∃ (r : Fin 131072) (j : Fin 128), i = ix2 r j := ⟨i 0, i 1, eq_ix2 i⟩
  rw [val_main_v40_apply, val_main_v39_apply, state_eq,
    val_main_v36_apply, val_main_v35_apply, val_main_cst_4_apply, val_main_v34_apply, val_main_v33_apply, val_main_cst_3_apply,
    val_main_v32_apply, val_main_v31_apply, gate_output]
  simp only [Ideal.addf_def, Ideal.mulf_def, Ideal.hostDivf_def, Ideal.hostUnary_exp_def, Ideal.hostUnary_tanh_def,
    Ideal.hostNegf_def, Ideal.negf_def, Ideal.ofBits_def, sigmoid_spelling]
  rfl

/-! ## The four gates' weights and biases laid side by side

  Four weight matrices of 128 columns each, joined along the columns into one of 512, keep gate `g`'s column `j` at
  column `128 g + j`; four biases of 128 entries, joined into one of 512 and then viewed as a single row, keep gate
  `g`'s entry `j` at position `128 g + j` of that row. These mention no program. -/

/-- Column `0 + j` of the four joined weight matrices is column `j` of the forget gate's (piece 0). -/
theorem weights_piece0 (W0 W1 W2 W3 : (⟨2, ![256, 128]⟩ : Shape).Idx → EReal)
    (h : Shape.Concatenates [(⟨2, ![256, 128]⟩ : Shape), ⟨2, ![256, 128]⟩, ⟨2, ![256, 128]⟩, ⟨2, ![256, 128]⟩] ⟨2, ![256, 512]⟩ 1)
    (k : Fin 256) (c : Fin 512) (j : Fin 128) (hc : c.val = j.val) :
    concatenate ⟨2, ![256, 512]⟩ 1 [⟨⟨2, ![256, 128]⟩, W0⟩, ⟨⟨2, ![256, 128]⟩, W1⟩, ⟨⟨2, ![256, 128]⟩, W2⟩, ⟨⟨2, ![256, 128]⟩, W3⟩] h (ix2 k c)
      = W0 (ix2 k j) :=
  concatenate_apply_piece (t := ⟨2, ![256, 512]⟩) 1
    [⟨⟨2, ![256, 128]⟩, W0⟩, ⟨⟨2, ![256, 128]⟩, W1⟩, ⟨⟨2, ![256, 128]⟩, W2⟩, ⟨⟨2, ![256, 128]⟩, W3⟩]
    h (ix2 k c) 0 (by simp) ⟨2, ![256, 128]⟩ W0 rfl rfl 0 rfl (ix2 k j)
    (fun b hb => by
      match b with
      | ⟨0, _⟩ => rfl
      | ⟨1, _⟩ => exact absurd rfl hb)
    (by show 0 + j.val = c.val; omega)

/-- Column `128 + j` of the four joined weight matrices is column `j` of the input-sigmoid gate's (piece 1). -/
theorem weights_piece1 (W0 W1 W2 W3 : (⟨2, ![256, 128]⟩ : Shape).Idx → EReal)
    (h : Shape.Concatenates [(⟨2, ![256, 128]⟩ : Shape), ⟨2, ![256, 128]⟩, ⟨2, ![256, 128]⟩, ⟨2, ![256, 128]⟩] ⟨2, ![256, 512]⟩ 1)
    (k : Fin 256) (c : Fin 512) (j : Fin 128) (hc : c.val = 128 + j.val) :
    concatenate ⟨2, ![256, 512]⟩ 1 [⟨⟨2, ![256, 128]⟩, W0⟩, ⟨⟨2, ![256, 128]⟩, W1⟩, ⟨⟨2, ![256, 128]⟩, W2⟩, ⟨⟨2, ![256, 128]⟩, W3⟩] h (ix2 k c)
      = W1 (ix2 k j) :=
  concatenate_apply_piece (t := ⟨2, ![256, 512]⟩) 1
    [⟨⟨2, ![256, 128]⟩, W0⟩, ⟨⟨2, ![256, 128]⟩, W1⟩, ⟨⟨2, ![256, 128]⟩, W2⟩, ⟨⟨2, ![256, 128]⟩, W3⟩]
    h (ix2 k c) 1 (by simp) ⟨2, ![256, 128]⟩ W1 rfl rfl 128 rfl (ix2 k j)
    (fun b hb => by
      match b with
      | ⟨0, _⟩ => rfl
      | ⟨1, _⟩ => exact absurd rfl hb)
    (by show 128 + j.val = c.val; omega)

/-- Column `256 + j` of the four joined weight matrices is column `j` of the input-tanh gate's (piece 2). -/
theorem weights_piece2 (W0 W1 W2 W3 : (⟨2, ![256, 128]⟩ : Shape).Idx → EReal)
    (h : Shape.Concatenates [(⟨2, ![256, 128]⟩ : Shape), ⟨2, ![256, 128]⟩, ⟨2, ![256, 128]⟩, ⟨2, ![256, 128]⟩] ⟨2, ![256, 512]⟩ 1)
    (k : Fin 256) (c : Fin 512) (j : Fin 128) (hc : c.val = 256 + j.val) :
    concatenate ⟨2, ![256, 512]⟩ 1 [⟨⟨2, ![256, 128]⟩, W0⟩, ⟨⟨2, ![256, 128]⟩, W1⟩, ⟨⟨2, ![256, 128]⟩, W2⟩, ⟨⟨2, ![256, 128]⟩, W3⟩] h (ix2 k c)
      = W2 (ix2 k j) :=
  concatenate_apply_piece (t := ⟨2, ![256, 512]⟩) 1
    [⟨⟨2, ![256, 128]⟩, W0⟩, ⟨⟨2, ![256, 128]⟩, W1⟩, ⟨⟨2, ![256, 128]⟩, W2⟩, ⟨⟨2, ![256, 128]⟩, W3⟩]
    h (ix2 k c) 2 (by simp) ⟨2, ![256, 128]⟩ W2 rfl rfl 256 rfl (ix2 k j)
    (fun b hb => by
      match b with
      | ⟨0, _⟩ => rfl
      | ⟨1, _⟩ => exact absurd rfl hb)
    (by show 256 + j.val = c.val; omega)

/-- Column `384 + j` of the four joined weight matrices is column `j` of the output gate's (piece 3). -/
theorem weights_piece3 (W0 W1 W2 W3 : (⟨2, ![256, 128]⟩ : Shape).Idx → EReal)
    (h : Shape.Concatenates [(⟨2, ![256, 128]⟩ : Shape), ⟨2, ![256, 128]⟩, ⟨2, ![256, 128]⟩, ⟨2, ![256, 128]⟩] ⟨2, ![256, 512]⟩ 1)
    (k : Fin 256) (c : Fin 512) (j : Fin 128) (hc : c.val = 384 + j.val) :
    concatenate ⟨2, ![256, 512]⟩ 1 [⟨⟨2, ![256, 128]⟩, W0⟩, ⟨⟨2, ![256, 128]⟩, W1⟩, ⟨⟨2, ![256, 128]⟩, W2⟩, ⟨⟨2, ![256, 128]⟩, W3⟩] h (ix2 k c)
      = W3 (ix2 k j) :=
  concatenate_apply_piece (t := ⟨2, ![256, 512]⟩) 1
    [⟨⟨2, ![256, 128]⟩, W0⟩, ⟨⟨2, ![256, 128]⟩, W1⟩, ⟨⟨2, ![256, 128]⟩, W2⟩, ⟨⟨2, ![256, 128]⟩, W3⟩]
    h (ix2 k c) 3 (by simp) ⟨2, ![256, 128]⟩ W3 rfl rfl 384 rfl (ix2 k j)
    (fun b hb => by
      match b with
      | ⟨0, _⟩ => rfl
      | ⟨1, _⟩ => exact absurd rfl hb)
    (by show 384 + j.val = c.val; omega)

/-- Position `0 + j` of the single row made of the four joined biases is entry `j` of the forget gate's (piece 0). -/
theorem bias_piece0 (b0 b1 b2 b3 : (⟨1, ![128]⟩ : Shape).Idx → EReal)
    (h : Shape.Concatenates [(⟨1, ![128]⟩ : Shape), ⟨1, ![128]⟩, ⟨1, ![128]⟩, ⟨1, ![128]⟩] ⟨1, ![512]⟩ 0)
    (hs : (⟨1, ![512]⟩ : Shape).ShapeCasts ⟨2, ![1, 512]⟩) (u : Fin 1) (c : Fin 512) (j : Fin 128) (hc : c.val = j.val) :
    shapeCast ⟨2, ![1, 512]⟩ (concatenate ⟨1, ![512]⟩ 0 [⟨⟨1, ![128]⟩, b0⟩, ⟨⟨1, ![128]⟩, b1⟩, ⟨⟨1, ![128]⟩, b2⟩, ⟨⟨1, ![128]⟩, b3⟩] h) hs (ix2 u c)
      = b0 (ix1 j) := by
  rw [shapeCast_a_1a_apply]
  exact concatenate_apply_piece (t := ⟨1, ![512]⟩) 0
    [⟨⟨1, ![128]⟩, b0⟩, ⟨⟨1, ![128]⟩, b1⟩, ⟨⟨1, ![128]⟩, b2⟩, ⟨⟨1, ![128]⟩, b3⟩]
    h (ix1 c) 0 (by simp) ⟨1, ![128]⟩ b0 rfl rfl 0 rfl (ix1 j)
    (fun b hb => by
      match b with
      | ⟨0, _⟩ => exact absurd rfl hb)
    (by show 0 + j.val = c.val; omega)

/-- Position `128 + j` of the single row made of the four joined biases is entry `j` of the input-sigmoid gate's (piece 1). -/
theorem bias_piece1 (b0 b1 b2 b3 : (⟨1, ![128]⟩ : Shape).Idx → EReal)
    (h : Shape.Concatenates [(⟨1, ![128]⟩ : Shape), ⟨1, ![128]⟩, ⟨1, ![128]⟩, ⟨1, ![128]⟩] ⟨1, ![512]⟩ 0)
    (hs : (⟨1, ![512]⟩ : Shape).ShapeCasts ⟨2, ![1, 512]⟩) (u : Fin 1) (c : Fin 512) (j : Fin 128) (hc : c.val = 128 + j.val) :
    shapeCast ⟨2, ![1, 512]⟩ (concatenate ⟨1, ![512]⟩ 0 [⟨⟨1, ![128]⟩, b0⟩, ⟨⟨1, ![128]⟩, b1⟩, ⟨⟨1, ![128]⟩, b2⟩, ⟨⟨1, ![128]⟩, b3⟩] h) hs (ix2 u c)
      = b1 (ix1 j) := by
  rw [shapeCast_a_1a_apply]
  exact concatenate_apply_piece (t := ⟨1, ![512]⟩) 0
    [⟨⟨1, ![128]⟩, b0⟩, ⟨⟨1, ![128]⟩, b1⟩, ⟨⟨1, ![128]⟩, b2⟩, ⟨⟨1, ![128]⟩, b3⟩]
    h (ix1 c) 1 (by simp) ⟨1, ![128]⟩ b1 rfl rfl 128 rfl (ix1 j)
    (fun b hb => by
      match b with
      | ⟨0, _⟩ => exact absurd rfl hb)
    (by show 128 + j.val = c.val; omega)

/-- Position `256 + j` of the single row made of the four joined biases is entry `j` of the input-tanh gate's (piece 2). -/
theorem bias_piece2 (b0 b1 b2 b3 : (⟨1, ![128]⟩ : Shape).Idx → EReal)
    (h : Shape.Concatenates [(⟨1, ![128]⟩ : Shape), ⟨1, ![128]⟩, ⟨1, ![128]⟩, ⟨1, ![128]⟩] ⟨1, ![512]⟩ 0)
    (hs : (⟨1, ![512]⟩ : Shape).ShapeCasts ⟨2, ![1, 512]⟩) (u : Fin 1) (c : Fin 512) (j : Fin 128) (hc : c.val = 256 + j.val) :
    shapeCast ⟨2, ![1, 512]⟩ (concatenate ⟨1, ![512]⟩ 0 [⟨⟨1, ![128]⟩, b0⟩, ⟨⟨1, ![128]⟩, b1⟩, ⟨⟨1, ![128]⟩, b2⟩, ⟨⟨1, ![128]⟩, b3⟩] h) hs (ix2 u c)
      = b2 (ix1 j) := by
  rw [shapeCast_a_1a_apply]
  exact concatenate_apply_piece (t := ⟨1, ![512]⟩) 0
    [⟨⟨1, ![128]⟩, b0⟩, ⟨⟨1, ![128]⟩, b1⟩, ⟨⟨1, ![128]⟩, b2⟩, ⟨⟨1, ![128]⟩, b3⟩]
    h (ix1 c) 2 (by simp) ⟨1, ![128]⟩ b2 rfl rfl 256 rfl (ix1 j)
    (fun b hb => by
      match b with
      | ⟨0, _⟩ => exact absurd rfl hb)
    (by show 256 + j.val = c.val; omega)

/-- Position `384 + j` of the single row made of the four joined biases is entry `j` of the output gate's (piece 3). -/
theorem bias_piece3 (b0 b1 b2 b3 : (⟨1, ![128]⟩ : Shape).Idx → EReal)
    (h : Shape.Concatenates [(⟨1, ![128]⟩ : Shape), ⟨1, ![128]⟩, ⟨1, ![128]⟩, ⟨1, ![128]⟩] ⟨1, ![512]⟩ 0)
    (hs : (⟨1, ![512]⟩ : Shape).ShapeCasts ⟨2, ![1, 512]⟩) (u : Fin 1) (c : Fin 512) (j : Fin 128) (hc : c.val = 384 + j.val) :
    shapeCast ⟨2, ![1, 512]⟩ (concatenate ⟨1, ![512]⟩ 0 [⟨⟨1, ![128]⟩, b0⟩, ⟨⟨1, ![128]⟩, b1⟩, ⟨⟨1, ![128]⟩, b2⟩, ⟨⟨1, ![128]⟩, b3⟩] h) hs (ix2 u c)
      = b3 (ix1 j) := by
  rw [shapeCast_a_1a_apply]
  exact concatenate_apply_piece (t := ⟨1, ![512]⟩) 0
    [⟨⟨1, ![128]⟩, b0⟩, ⟨⟨1, ![128]⟩, b1⟩, ⟨⟨1, ![128]⟩, b2⟩, ⟨⟨1, ![128]⟩, b3⟩]
    h (ix1 c) 3 (by simp) ⟨1, ![128]⟩ b3 rfl rfl 384 rfl (ix1 j)
    (fun b hb => by
      match b with
      | ⟨0, _⟩ => exact absurd rfl hb)
    (by show 384 + j.val = c.val; omega)

end Cert.RefIsCell

end
-- ==== Proof.lean ====
/-
  The certificate's five claims.

  The kernel computes a recurrent cell's update for 131072 batch rows, 4096 rows per grid point: it joins a row of the
  input with the row of the previous output, multiplies the joined row by ONE fused 256 by 512 weight matrix (the four
  gates' matrices side by side), adds the fused bias row, cuts the 512 results into the four gates' pre-activations,
  and forms  new state = sigmoid(forget) · previous state + sigmoid(input) · tanh(candidate)  and
  new output = tanh(new state) · sigmoid(output gate).  The reference multiplies the joined row by each gate's own
  matrix and adds that gate's own bias, and spells each sigmoid as 1 / (1 + e^(-s)).

  On the extended reals the two agree term by term: column 128 g + j of the fused matrix is column j of gate g's
  matrix, so each pre-activation is the same sum of the same 256 products plus the same bias entry; a change of float
  format is the identity; and the sigmoid IS 1 / (1 + e^(-s)) at every extended real. No law that needs finite entries
  is used, so the precondition is never opened.

  Frames: the kernel's program (at the word-level instance and at the ideal one) runs its four host operations and then
  its one region, whose body reads five whole blocks and overwrites two; the reference is a straight line of host
  operations. Each terminates without a fault with its eleven argument arrays as launched. The idealization rewrote
  nothing, so the kernel's idealized text is its own text read at the ideal instance.
-/
import proofs.«153721_j24756191494329_2_alg».proof.Defs
import proofs.«153721_j24756191494329_2_alg».proof.Proof.Gen.Kernel
import proofs.«153721_j24756191494329_2_alg».proof.Proof.Gen.KernelIdeal
import proofs.«153721_j24756191494329_2_alg».proof.Proof.Gen.ReferenceIdeal
import proofs.«153721_j24756191494329_2_alg».proof.Proof.Gen.Pre_finite_inputs
import proofs.«153721_j24756191494329_2_alg».proof.Proof.Gen.ReferenceIdeal.Read
import proofs.«153721_j24756191494329_2_alg».proof.Proof.BitsRun
import proofs.«153721_j24756191494329_2_alg».proof.Proof.IdealRun
import proofs.«153721_j24756191494329_2_alg».proof.Proof.IdealArrays
import proofs.«153721_j24756191494329_2_alg».proof.Proof.RefIsCell
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Whole.frame m ρ

/-- So does its idealization. -/
theorem frame_kernelIdeal : Cert.frame_KernelIdeal := fun m ρ _ => Cert.KernelIdeal.Whole.frame m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the eleven arguments, both programs end with the new cell state and the new output
    of the cell's specification, entry by entry, and with their arguments unchanged. -/
theorem algebraic : Cert.algebraic_KernelIdeal_ReferenceIdeal := by
  intro m ρ m' ρ' _ hagree
  refine ⟨fun c => Cert.CellSpec.stateArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.CellSpec.outputArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨((h c).1 5).trans (Cert.KernelIdeal.Arrays.state_final m c),
      ((h c).1 6).trans (Cert.KernelIdeal.Arrays.output_final m c),
      ((h c).1 0).trans (((Cert.KernelIdeal.Whole.dats m 0 c).arrAt_in 0 rfl _).trans ((Cert.KernelIdeal.Whole.A_eq m c 0).trans (Cert.KernelIdeal.Region.entry_arg0 m c))),
      ((h c).1 1).trans (((Cert.KernelIdeal.Whole.dats m 0 c).arrAt_in 1 rfl _).trans ((Cert.KernelIdeal.Whole.A_eq m c 1).trans (Cert.KernelIdeal.Region.entry_arg1 m c))),
      ((h c).1 2).trans (((Cert.KernelIdeal.Whole.dats m 0 c).arrAt_in 2 rfl _).trans ((Cert.KernelIdeal.Whole.A_eq m c 2).trans (Cert.KernelIdeal.Region.entry_arg2 m c))),
      ((h c).2 Cert.KernelIdeal.main_arg3 (Pipeline.mem_restRefs_of Cert.KernelIdeal.main_arg3 (by decide) (by decide))).trans (Cert.KernelIdeal.Region.entry_arg3 m c),
      ((h c).2 Cert.KernelIdeal.main_arg4 (Pipeline.mem_restRefs_of Cert.KernelIdeal.main_arg4 (by decide) (by decide))).trans (Cert.KernelIdeal.Region.entry_arg4 m c),
      ((h c).2 Cert.KernelIdeal.main_arg5 (Pipeline.mem_restRefs_of Cert.KernelIdeal.main_arg5 (by decide) (by decide))).trans (Cert.KernelIdeal.Region.entry_arg5 m c),
      ((h c).2 Cert.KernelIdeal.main_arg6 (Pipeline.mem_restRefs_of Cert.KernelIdeal.main_arg6 (by decide) (by decide))).trans (Cert.KernelIdeal.Region.entry_arg6 m c),
      ((h c).2 Cert.KernelIdeal.main_arg7 (Pipeline.mem_restRefs_of Cert.KernelIdeal.main_arg7 (by decide) (by decide))).trans (Cert.KernelIdeal.Region.entry_arg7 m c),
      ((h c).2 Cert.KernelIdeal.main_arg8 (Pipeline.mem_restRefs_of Cert.KernelIdeal.main_arg8 (by decide) (by decide))).trans (Cert.KernelIdeal.Region.entry_arg8 m c),
      ((h c).2 Cert.KernelIdeal.main_arg9 (Pipeline.mem_restRefs_of Cert.KernelIdeal.main_arg9 (by decide) (by decide))).trans (Cert.KernelIdeal.Region.entry_arg9 m c),
      ((h c).2 Cert.KernelIdeal.main_arg10 (Pipeline.mem_restRefs_of Cert.KernelIdeal.main_arg10 (by decide) (by decide))).trans (Cert.KernelIdeal.Region.entry_arg10 m c)⟩)
      (Cert.KernelIdeal.Whole.run_main (F := Ideal) m ρ)
  · refine (θ_run Cert.ReferenceIdeal.defs _ _).mono (fun r h c => ⟨?_, ?_, (h c).2.2⟩) (Cert.ReferenceIdeal.Value.run (F := Ideal) m' ρ')
    · obtain ⟨e0, e1, e2, e3, e4, e5, e6, e7, e8, e9, e10⟩ := hagree c
      rw [(h c).1, Cert.ReferenceIdeal.Read.val_main_v38_eq, Cert.RefIsCell.state_eq, e0, e1, e2, e3, e4, e5, e6, e7, e8]
    · obtain ⟨e0, e1, e2, e3, e4, e5, e6, e7, e8, e9, e10⟩ := hagree c
      rw [(h c).2.1, Cert.ReferenceIdeal.Read.val_main_v40_eq, Cert.RefIsCell.output_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
